-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1x64 : Shape := ⟨3, ![4096, 1, 64]⟩
abbrev S4096x200x64 : Shape := ⟨3, ![4096, 200, 64]⟩
abbrev S4096 : Shape := ⟨1, ![4096]⟩
abbrev S256x80 : Shape := ⟨2, ![256, 80]⟩
abbrev S80 : Shape := ⟨1, ![80]⟩
abbrev S80x40 : Shape := ⟨2, ![80, 40]⟩
abbrev S40 : Shape := ⟨1, ![40]⟩
abbrev S40x1 : Shape := ⟨2, ![40, 1]⟩
abbrev S1 : Shape := ⟨1, ![1]⟩
abbrev S_ : Shape := ⟨0, ![]⟩

class Facts : Prop where
  bcast_S_S4096x1x64 : S_.BroadcastsInDim S4096x1x64 (![] : Fin 0 → Fin S4096x1x64.rank)
  reducesTo_S4096x1x64_S_d0_1_2 : S4096x1x64.ReducesTo [0, 1, 2] S_
  h_S_ : 0 < S_.numel
  bcast_S_S4096x200x64 : S_.BroadcastsInDim S4096x200x64 (![] : Fin 0 → Fin S4096x200x64.rank)
  reducesTo_S4096x200x64_S_d0_1_2 : S4096x200x64.ReducesTo [0, 1, 2] S_
  bcast_S_S256x80 : S_.BroadcastsInDim S256x80 (![] : Fin 0 → Fin S256x80.rank)
  reducesTo_S256x80_S_d0_1 : S256x80.ReducesTo [0, 1] S_
  bcast_S_S80 : S_.BroadcastsInDim S80 (![] : Fin 0 → Fin S80.rank)
  reducesTo_S80_S_d0 : S80.ReducesTo [0] S_
  bcast_S_S80x40 : S_.BroadcastsInDim S80x40 (![] : Fin 0 → Fin S80x40.rank)
  reducesTo_S80x40_S_d0_1 : S80x40.ReducesTo [0, 1] S_
  bcast_S_S40 : S_.BroadcastsInDim S40 (![] : Fin 0 → Fin S40.rank)
  reducesTo_S40_S_d0 : S40.ReducesTo [0] S_
  bcast_S_S40x1 : S_.BroadcastsInDim S40x1 (![] : Fin 0 → Fin S40x1.rank)
  reducesTo_S40x1_S_d0_1 : S40x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S80x40 .f32) (main_arg6 : FVec F S40 .f32) (main_arg7 : FVec F S40x1 .f32) (main_arg8 : FVec F S1 .f32) (main_v13 : IVec S_ 1) (main_v16 : IVec S80 1) : IVec S_ 1 :=
  let main_c_5 : IVec S_ 1 := constantI S_ 1 1#1
  let main_v17 : IVec S_ 1 := (fun x v => Host.reduce IntOp.andi x v reducesTo_S80_S_d0 h_S_) main_v16 main_c_5
  let main_v18 : IVec S_ 1 := andi main_v13 main_v17
  let main_v19 : FVec F S80x40 .f32 := Host.absf main_arg5
  let main_cst_6 : FVec F S_ .f32 := constant S_ .f32 0x7F800000#32
  let main_v20 : FVec F S80x40 .f32 := broadcastInDim S80x40 ![] bcast_S_S80x40 main_cst_6
  let main_v21 : IVec S80x40 1 := cmpf .olt main_v19 main_v20
  let main_c_7 : IVec S_ 1 := constantI S_ 1 1#1
  let main_v22 : IVec S_ 1 := (fun x v => Host.reduce IntOp.andi x v reducesTo_S80x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40x1 .f32 := Host.absf main_arg7
  let main_cst_10 : FVec F S_ .f32 := constant S_ .f32 0x7F800000#32
  let main_v30 : FVec F S40x1 .f32 := broadcastInDim S40x1 ![] bcast_S_S40x1 main_cst_10
  let main_v31 : IVec S40x1 1 := cmpf .olt main_v29 main_v30
  let main_c_11 : IVec S_ 1 := constantI S_ 1 1#1
  let main_v32 : IVec S_ 1 := (fun x v => Host.reduce IntOp.andi x v reducesTo_S40x1_S_d0_1 h_S_) main_v31 main_c_11
  let main_v33 : IVec S_ 1 := andi main_v28 main_v32
  fn_part2 (F := F) main_arg8 main_v33

def fn {F : FTy → Type} [FloatOps F] (main_arg0 : FVec F S4096x1x64 .f32) (main_arg1 : FVec F S4096x200x64 .f32) (main_arg2 : IVec S4096 32) (main_arg3 : FVec F S256x80 .f32) (main_arg4 : FVec F S80 .f32) (main_arg5 : FVec F S80x40 .f32) (main_arg6 : FVec F S40 .f32) (main_arg7 : FVec F S40x1 .f32) (main_arg8 : FVec F S1 .f32) : IVec S_ 1 :=
  let main_v0 : FVec F S4096x1x64 .f32 := Host.absf main_arg0
  let main_cst : FVec F S_ .f32 := constant S_ .f32 0x7F800000#32
  let main_v1 : FVec F S4096x1x64 .f32 := broadcastInDim S4096x1x64 ![] bcast_S_S4096x1x64 main_cst
  let main_v2 : IVec S4096x1x64 1 := cmpf .olt main_v0 main_v1
  let main_c : IVec S_ 1 := constantI S_ 1 1#1
  let main_v3 : IVec S_ 1 := (fun x v => Host.reduce IntOp.andi x v reducesTo_S4096x1x64_S_d0_1_2 h_S_) main_v2 main_c
  let main_v4 : FVec F S4096x200x64 .f32 := Host.absf main_arg1
  let main_cst_0 : FVec F S_ .f32 := constant S_ .f32 0x7F800000#32
  let main_v5 : FVec F S4096x200x64 .f32 := broadcastInDim S4096x200x64 ![] bcast_S_S4096x200x64 main_cst_0
  let main_v6 : IVec S4096x200x64 1 := cmpf .olt main_v4 main_v5
  let main_c_1 : IVec S_ 1 := constantI S_ 1 1#1
  let main_v7 : IVec S_ 1 := (fun x v => Host.reduce IntOp.andi x v reducesTo_S4096x200x64_S_d0_1_2 h_S_) main_v6 main_c_1
  let main_v8 : IVec S_ 1 := andi main_v3 main_v7
  let main_v9 : FVec F S256x80 .f32 := Host.absf main_arg3
  let main_cst_2 : FVec F S_ .f32 := constant S_ .f32 0x7F800000#32
  let main_v10 : FVec F S256x80 .f32 := broadcastInDim S256x80 ![] bcast_S_S256x80 main_cst_2
  let main_v11 : IVec S256x80 1 := cmpf .olt main_v9 main_v10
  let main_c_3 : IVec S_ 1 := constantI S_ 1 1#1
  let main_v12 : IVec S_ 1 := (fun x v => Host.reduce IntOp.andi x v reducesTo_S256x80_S_d0_1 h_S_) main_v11 main_c_3
  let main_v13 : IVec S_ 1 := andi main_v8 main_v12
  let main_v14 : FVec F S80 .f32 := Host.absf main_arg4
  let main_cst_4 : FVec F S_ .f32 := constant S_ .f32 0x7F800000#32
  let main_v15 : FVec F S80 .f32 := broadcastInDim S80 ![] bcast_S_S80 main_cst_4
  let main_v16 : IVec S80 1 := cmpf .olt main_v14 main_v15
  fn_part1 (F := F) main_arg5 main_arg6 main_arg7 main_arg8 main_v13 main_v16
-- ==== Kernel.lean ====
abbrev S4096x1x64 : Shape := ⟨3, ![4096, 1, 64]⟩
abbrev S4096x200x64 : Shape := ⟨3, ![4096, 200, 64]⟩
abbrev S4096 : Shape := ⟨1, ![4096]⟩
abbrev S256x80 : Shape := ⟨2, ![256, 80]⟩
abbrev S80 : Shape := ⟨1, ![80]⟩
abbrev S80x40 : Shape := ⟨2, ![80, 40]⟩
abbrev S40 : Shape := ⟨1, ![40]⟩
abbrev S40x1 : Shape := ⟨2, ![40, 1]⟩
abbrev S1 : Shape := ⟨1, ![1]⟩
abbrev S64x80 : Shape := ⟨2, ![64, 80]⟩
abbrev S128x80 : Shape := ⟨2, ![128, 80]⟩
abbrev S1x80 : Shape := ⟨2, ![1, 80]⟩
abbrev S1x40 : Shape := ⟨2, ![1, 40]⟩
abbrev S1x1 : Shape := ⟨2, ![1, 1]⟩
abbrev S4096x1 : Shape := ⟨2, ![4096, 1]⟩
abbrev S32x1x64 : Shape := ⟨3, ![32, 1, 64]⟩
abbrev S32x200x64 : Shape := ⟨3, ![32, 200, 64]⟩
abbrev S32x1 : Shape := ⟨2, ![32, 1]⟩
abbrev S32x200x128 : Shape := ⟨3, ![32, 200, 128]⟩
abbrev S6400x128 : Shape := ⟨2, ![6400, 128]⟩
abbrev S6400x80 : Shape := ⟨2, ![6400, 80]⟩
abbrev S32x200x80 : Shape := ⟨3, ![32, 200, 80]⟩
abbrev S32x64 : Shape := ⟨2, ![32, 64]⟩
abbrev S32x80 : Shape := ⟨2, ![32, 80]⟩
abbrev S32x1x80 : Shape := ⟨3, ![32, 1, 80]⟩
abbrev S1x1x80 : Shape := ⟨3, ![1, 1, 80]⟩
abbrev S6400x40 : Shape := ⟨2, ![6400, 40]⟩
abbrev S32x200x40 : Shape := ⟨3, ![32, 200, 40]⟩
abbrev S1x1x40 : Shape := ⟨3, ![1, 1, 40]⟩
abbrev S32x200 : Shape := ⟨2, ![32, 200]⟩
abbrev S32x200x1 : Shape := ⟨3, ![32, 200, 1]⟩
abbrev S1x1x1 : Shape := ⟨3, ![1, 1, 1]⟩
abbrev S32x1x1 : Shape := ⟨3, ![32, 1, 1]⟩

abbrev nBuf : Space → Nat
  | .hbm => 23
  | .vmem => 15
  | .smem => 0
  | _ => 0

abbrev bufTy : (tb : Table) → Fin (tcTables nBuf tb) → BufTy
  | .hbm, ⟨0, _⟩ => ⟨S4096x1x64, .f32⟩
  | .hbm, ⟨1, _⟩ => ⟨S4096x200x64, .f32⟩
  | .hbm, ⟨2, _⟩ => ⟨S4096, .i32⟩
  | .hbm, ⟨3, _⟩ => ⟨S256x80, .f32⟩
  | .hbm, ⟨4, _⟩ => ⟨S80, .f32⟩
  | .hbm, ⟨5, _⟩ => ⟨S80x40, .f32⟩
  | .hbm, ⟨6, _⟩ => ⟨S40, .f32⟩
  | .hbm, ⟨7, _⟩ => ⟨S40x1, .f32⟩
  | .hbm, ⟨8, _⟩ => ⟨S1, .f32⟩
  | .hbm, ⟨9, _⟩ => ⟨S64x80, .f32⟩
  | .hbm, ⟨10, _⟩ => ⟨S64x80, .f32⟩
  | .hbm, ⟨11, _⟩ => ⟨S64x80, .f32⟩
  | .hbm, ⟨12, _⟩ => ⟨S64x80, .f32⟩
  | .hbm, ⟨13, _⟩ => ⟨S64x80, .f32⟩
  | .hbm, ⟨14, _⟩ => ⟨S64x80, .f32⟩
  | .hbm, ⟨15, _⟩ => ⟨S128x80, .f32⟩
  | .hbm, ⟨16, _⟩ => ⟨S1x80, .f32⟩
  | .hbm, ⟨17, _⟩ => ⟨S1x40, .f32⟩
  | .hbm, ⟨18, _⟩ => ⟨S40, .f32⟩
  | .hbm, ⟨19, _⟩ => ⟨S1x40, .f32⟩
  | .hbm, ⟨20, _⟩ => ⟨S1x1, .f32⟩
  | .hbm, ⟨21, _⟩ => ⟨S4096x1, .i32⟩
  | .hbm, ⟨22, _⟩ => ⟨S4096x1x64, .f32⟩
  | .local _ .vmem, ⟨0, _⟩ => ⟨S32x1x64, .f32⟩
  | .local _ .vmem, ⟨1, _⟩ => ⟨S32x1x64, .f32⟩
  | .local _ .vmem, ⟨2, _⟩ => ⟨S32x200x64, .f32⟩
  | .local _ .vmem, ⟨3, _⟩ => ⟨S32x200x64, .f32⟩
  | .local _ .vmem, ⟨4, _⟩ => ⟨S32x1, .i32⟩
  | .local _ .vmem, ⟨5, _⟩ => ⟨S32x1, .i32⟩
  | .local _ .vmem, ⟨6, _⟩ => ⟨S128x80, .f32⟩
  | .local _ .vmem, ⟨7, _⟩ => ⟨S64x80, .f32⟩
  | .local _ .vmem, ⟨8, _⟩ => ⟨S1x80, .f32⟩
  | .local _ .vmem, ⟨9, _⟩ => ⟨S80x40, .f32⟩
  | .local _ .vmem, ⟨10, _⟩ => ⟨S1x40, .f32⟩
  | .local _ .vmem, ⟨11, _⟩ => ⟨S1x40, .f32⟩
  | .local _ .vmem, ⟨12, _⟩ => ⟨S1x1, .f32⟩
  | .local _ .vmem, ⟨13, _⟩ => ⟨S32x1x64, .f32⟩
  | .local _ .vmem, ⟨14, _⟩ => ⟨S32x1x64, .f32⟩
  | _, _ => ⟨S4096x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S80x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x1x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S256x80_S64x80_0_0 : S256x80.Slices ![0, 0] S64x80
  slices_S256x80_S64x80_64_0 : S256x80.Slices ![64, 0] S64x80
  slices_S256x80_S64x80_128_0 : S256x80.Slices ![128, 0] S64x80
  slices_S256x80_S64x80_192_0 : S256x80.Slices ![192, 0] S64x80
  concatenates_S64x80_S64x80_S128x80_d0 : Shape.Concatenates [S64x80, S64x80] S128x80 0
  shapeCasts_S80_S1x80 : S80.ShapeCasts S1x80
  shapeCasts_S40_S1x40 : S40.ShapeCasts S1x40
  shapeCasts_S40x1_S40 : S40x1.ShapeCasts S40
  shapeCasts_S1_S1x1 : S1.ShapeCasts S1x1
  shapeCasts_S4096_S4096x1 : S4096.ShapeCasts S4096x1
  inb_S32x1x64_S32x1x64_0_0_0 : ∀ a, (![0, 0, 0] : Fin 3 → Nat) a + S32x1x64.size a ≤ S32x1x64.size a
  h_S32x1x64 : 0 < S32x1x64.numel
  inb_S32x200x64_S32x200x64_0_0_0 : ∀ a, (![0, 0, 0] : Fin 3 → Nat) a + S32x200x64.size a ≤ S32x200x64.size a
  h_S32x200x64 : 0 < S32x200x64.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1x64_S32x200x64 : S32x1x64.Broadcasts S32x200x64
  concatenates_S32x200x64_S32x200x64_S32x200x128_d2 : Shape.Concatenates [S32x200x64, S32x200x64] S32x200x128 2
  bitsLt_bf16_f32 : FTy.bits .bf16 < FTy.bits .f32
  shapeCasts_S32x200x128_S6400x128 : S32x200x128.ShapeCasts S6400x128
  inb_S128x80_S128x80_0_0 : ∀ a, (![0, 0] : Fin 2 → Nat) a + S128x80.size a ≤ S128x80.size a
  h_S128x80 : 0 < S128x80.numel
  shapeCasts_S128x80_S128x80 : S128x80.ShapeCasts S128x80
  shapeCasts_S6400x80_S32x200x80 : S6400x80.ShapeCasts S32x200x80
  shapeCasts_S32x1x64_S32x64 : S32x1x64.ShapeCasts S32x64
  inb_S64x80_S64x80_0_0 : ∀ a, (![0, 0] : Fin 2 → Nat) a + S64x80.size a ≤ S64x80.size a
  h_S64x80 : 0 < S64x80.numel
  shapeCasts_S64x80_S64x80 : S64x80.ShapeCasts S64x80
  shapeCasts_S32x80_S32x1x80 : S32x80.ShapeCasts S32x1x80
  broadcasts_S32x1x80_S32x200x80 : S32x1x80.Broadcasts S32x200x80
  inb_S1x80_S1x80_0_0 : ∀ a, (![0, 0] : Fin 2 → Nat) a + S1x80.size a ≤ S1x80.size a
  h_S1x80 : 0 < S1x80.numel
  shapeCasts_S1x80_S1x80 : S1x80.ShapeCasts S1x80
  shapeCasts_S1x80_S1x1x80 : S1x80.ShapeCasts S1x1x80
  broadcasts_S1x1x80_S32x200x80 : S1x1x80.Broadcasts S32x200x80
  shapeCasts_S32x200x80_S6400x80 : S32x200x80.ShapeCasts S6400x80
  inb_S80x40_S80x40_0_0 : ∀ a, (![0, 0] : Fin 2 → Nat) a + S80x40.size a ≤ S80x40.size a
  h_S80x40 : 0 < S80x40.numel
  shapeCasts_S6400x40_S32x200x40 : S6400x40.ShapeCasts S32x200x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  shapeCasts_S1x40_S1x1x40 : S1x40.ShapeCasts S1x1x40
  broadcasts_S1x1x40_S32x200x40 : S1x1x40.Broadcasts S32x200x40
  reduces_S32x200x40_S32x200 : S32x200x40.Reduces [2] S32x200
  shapeCasts_S32x200_S32x200x1 : S32x200.ShapeCasts S32x200x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S1x1x1 : S1x1.ShapeCasts S1x1x1
  broadcasts_S1x1x1_S32x200x1 : S1x1x1.Broadcasts S32x200x1
  iota_S32x200x1_d1_w32 : S32x200x1.Iotas .tc 32 [1]
  shapeCasts_S32x1_S32x1x1 : S32x1.ShapeCasts S32x1x1
  broadcasts_S32x1x1_S32x200x1 : S32x1x1.Broadcasts S32x200x1
  broadcasts_S32x200x1_S32x200x64 : S32x200x1.Broadcasts S32x200x64
  reduces_S32x200x64_S32x64 : S32x200x64.Reduces [1] S32x64
  shapeCasts_S32x64_S32x1x64 : S32x64.ShapeCasts S32x1x64
  dot_S6400x128_S128x80_S6400x80_1_0_0_1_n_n_wf : DotDims.WF S6400x128 S128x80 S6400x80 [1] [0] [0] [1] [] []
  dot_S32x64_S64x80_S32x80_1_0_0_1_n_n_wf : DotDims.WF S32x64 S64x80 S32x80 [1] [0] [0] [1] [] []
  dot_S6400x80_S80x40_S6400x40_1_0_0_1_n_n_wf : DotDims.WF S6400x80 S80x40 S6400x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1x64.size a ≤ S4096x1x64.size a
  hwx0_0 : ∀ i : grid0.Coords, EltTy.bits .f32 = 32 ∨ (Rect.block (s := S4096x1x64) S32x1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x200x64.size a ≤ S4096x200x64.size a
  hwx0_1 : ∀ i : grid0.Coords, EltTy.bits .f32 = 32 ∨ (Rect.block (s := S4096x200x64) S32x200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S4096x1.size a
  hwx0_2 : ∀ i : grid0.Coords, EltTy.bits .i32 = 32 ∨ (Rect.block (s := S4096x1) S32x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x80.size a ≤ S128x80.size a
  hwx0_3 : ∀ i : grid0.Coords, EltTy.bits .f32 = 32 ∨ (Rect.block (s := S128x80) S128x80.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x80.size a ≤ S64x80.size a
  hwx0_4 : ∀ i : grid0.Coords, EltTy.bits .f32 = 32 ∨ (Rect.block (s := S64x80) S64x80.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x80.size a ≤ S1x80.size a
  hwx0_5 : ∀ i : grid0.Coords, EltTy.bits .f32 = 32 ∨ (Rect.block (s := S1x80) S1x80.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S80x40.size a ≤ S80x40.size a
  hwx0_6 : ∀ i : grid0.Coords, EltTy.bits .f32 = 32 ∨ (Rect.block (s := S80x40) S80x40.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x40.size a ≤ S1x40.size a
  hwx0_7 : ∀ i : grid0.Coords, EltTy.bits .f32 = 32 ∨ (Rect.block (s := S1x40) S1x40.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x40.size a ≤ S1x40.size a
  hwx0_8 : ∀ i : grid0.Coords, EltTy.bits .f32 = 32 ∨ (Rect.block (s := S1x40) S1x40.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x1x64.size a ≤ S4096x1x64.size a
  hwx0_10 : ∀ i : grid0.Coords, EltTy.bits .f32 = 32 ∨ (Rect.block (s := S4096x1x64) S32x1x64.size (cc0_transform_10 i) (hinb0_10 i)).WholeWords (EltTy.packing .f32)

variable [Facts₀]

def dot_S6400x128_S128x80_S6400x80_1_0_0_1_n_n : DotDims S6400x128 S128x80 S6400x80 where
  lhsContracting := [1]
  rhsContracting := [0]
  lhsNonContracting := [0]
  rhsNonContracting := [1]
  lhsBatch := []
  rhsBatch := []
  wf := dot_S6400x128_S128x80_S6400x80_1_0_0_1_n_n_wf
def dot_S32x64_S64x80_S32x80_1_0_0_1_n_n : DotDims S32x64 S64x80 S32x80 where
  lhsContracting := [1]
  rhsContracting := [0]
  lhsNonContracting := [0]
  rhsNonContracting := [1]
  lhsBatch := []
  rhsBatch := []
  wf := dot_S32x64_S64x80_S32x80_1_0_0_1_n_n_wf
def dot_S6400x80_S80x40_S6400x40_1_0_0_1_n_n : DotDims S6400x80 S80x40 S6400x40 where
  lhsContracting := [1]
  rhsContracting := [0]
  lhsNonContracting := [0]
  rhsNonContracting := [1]
  lhsBatch := []
  rhsBatch := []
  wf := dot_S6400x80_S80x40_S6400x40_1_0_0_1_n_n_wf

abbrev win0_0 : Pipeline.Window sig grid0 :=
  Pipeline.Window.ofSpec (Memref.whole main_arg0) S32x1x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x80.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S64x80.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x80.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S80x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x40.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S32x1x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x1x64 : Shape := ⟨3, ![4096, 1, 64]⟩
abbrev S4096x200x64 : Shape := ⟨3, ![4096, 200, 64]⟩
abbrev S4096 : Shape := ⟨1, ![4096]⟩
abbrev S256x80 : Shape := ⟨2, ![256, 80]⟩
abbrev S80 : Shape := ⟨1, ![80]⟩
abbrev S80x40 : Shape := ⟨2, ![80, 40]⟩
abbrev S40 : Shape := ⟨1, ![40]⟩
abbrev S40x1 : Shape := ⟨2, ![40, 1]⟩
abbrev S1 : Shape := ⟨1, ![1]⟩
abbrev S4096x200x256 : Shape := ⟨3, ![4096, 200, 256]⟩
abbrev S4096x200x80 : Shape := ⟨3, ![4096, 200, 80]⟩
abbrev S1x1x80 : Shape := ⟨3, ![1, 1, 80]⟩
abbrev S_ : Shape := ⟨0, ![]⟩
abbrev S4096x200x40 : Shape := ⟨3, ![4096, 200, 40]⟩
abbrev S1x1x40 : Shape := ⟨3, ![1, 1, 40]⟩
abbrev S4096x200x1 : Shape := ⟨3, ![4096, 200, 1]⟩
abbrev S1x1x1 : Shape := ⟨3, ![1, 1, 1]⟩
abbrev S4096x1x200 : Shape := ⟨3, ![4096, 1, 200]⟩
abbrev S200 : Shape := ⟨1, ![200]⟩
abbrev S4096x1 : Shape := ⟨2, ![4096, 1]⟩
abbrev S1x200 : Shape := ⟨2, ![1, 200]⟩
abbrev S4096x200 : Shape := ⟨2, ![4096, 200]⟩

abbrev nBuf : Space → Nat
  | .hbm => 53
  | .vmem => 0
  | .smem => 0
  | _ => 0

abbrev bufTy : (tb : Table) → Fin (tcTables nBuf tb) → BufTy
  | .hbm, ⟨0, _⟩ => ⟨S4096x1x64, .f32⟩
  | .hbm, ⟨1, _⟩ => ⟨S4096x200x64, .f32⟩
  | .hbm, ⟨2, _⟩ => ⟨S4096, .i32⟩
  | .hbm, ⟨3, _⟩ => ⟨S256x80, .f32⟩
  | .hbm, ⟨4, _⟩ => ⟨S80, .f32⟩
  | .hbm, ⟨5, _⟩ => ⟨S80x40, .f32⟩
  | .hbm, ⟨6, _⟩ => ⟨S40, .f32⟩
  | .hbm, ⟨7, _⟩ => ⟨S40x1, .f32⟩
  | .hbm, ⟨8, _⟩ => ⟨S1, .f32⟩
  | .hbm, ⟨9, _⟩ => ⟨S4096x200x64, .f32⟩
  | .hbm, ⟨10, _⟩ => ⟨S4096x200x64, .f32⟩
  | .hbm, ⟨11, _⟩ => ⟨S4096x200x64, .f32⟩
  | .hbm, ⟨12, _⟩ => ⟨S4096x200x256, .f32⟩
  | .hbm, ⟨13, _⟩ => ⟨S4096x200x80, .f32⟩
  | .hbm, ⟨14, _⟩ => ⟨S1x1x80, .f32⟩
  | .hbm, ⟨15, _⟩ => ⟨S4096x200x80, .f32⟩
  | .hbm, ⟨16, _⟩ => ⟨S4096x200x80, .f32⟩
  | .hbm, ⟨17, _⟩ => ⟨S4096x200x80, .f32⟩
  | .hbm, ⟨18, _⟩ => ⟨S4096x200x80, .f32⟩
  | .hbm, ⟨19, _⟩ => ⟨S_, .f32⟩
  | .hbm, ⟨20, _⟩ => ⟨S4096x200x80, .f32⟩
  | .hbm, ⟨21, _⟩ => ⟨S4096x200x80, .f32⟩
  | .hbm, ⟨22, _⟩ => ⟨S_, .f32⟩
  | .hbm, ⟨23, _⟩ => ⟨S4096x200x80, .f32⟩
  | .hbm, ⟨24, _⟩ => ⟨S4096x200x80, .f32⟩
  | .hbm, ⟨25, _⟩ => ⟨S4096x200x40, .f32⟩
  | .hbm, ⟨26, _⟩ => ⟨S1x1x40, .f32⟩
  | .hbm, ⟨27, _⟩ => ⟨S4096x200x40, .f32⟩
  | .hbm, ⟨28, _⟩ => ⟨S4096x200x40, .f32⟩
  | .hbm, ⟨29, _⟩ => ⟨S4096x200x40, .f32⟩
  | .hbm, ⟨30, _⟩ => ⟨S4096x200x40, .f32⟩
  | .hbm, ⟨31, _⟩ => ⟨S_, .f32⟩
  | .hbm, ⟨32, _⟩ => ⟨S4096x200x40, .f32⟩
  | .hbm, ⟨33, _⟩ => ⟨S4096x200x40, .f32⟩
  | .hbm, ⟨34, _⟩ => ⟨S_, .f32⟩
  | .hbm, ⟨35, _⟩ => ⟨S4096x200x40, .f32⟩
  | .hbm, ⟨36, _⟩ => ⟨S4096x200x40, .f32⟩
  | .hbm, ⟨37, _⟩ => ⟨S4096x200x1, .f32⟩
  | .hbm, ⟨38, _⟩ => ⟨S1x1x1, .f32⟩
  | .hbm, ⟨39, _⟩ => ⟨S4096x200x1, .f32⟩
  | .hbm, ⟨40, _⟩ => ⟨S4096x200x1, .f32⟩
  | .hbm, ⟨41, _⟩ => ⟨S4096x1x200, .f32⟩
  | .hbm, ⟨42, _⟩ => ⟨S200, .i32⟩
  | .hbm, ⟨43, _⟩ => ⟨S4096x1, .i32⟩
  | .hbm, ⟨44, _⟩ => ⟨S1x200, .i32⟩
  | .hbm, ⟨45, _⟩ => ⟨S4096x200, .i32⟩
  | .hbm, ⟨46, _⟩ => ⟨S4096x200, .i32⟩
  | .hbm, ⟨47, _⟩ => ⟨S4096x200, .i1⟩
  | .hbm, ⟨48, _⟩ => ⟨S4096x1x200, .i1⟩
  | .hbm, ⟨49, _⟩ => ⟨S_, .f32⟩
  | .hbm, ⟨50, _⟩ => ⟨S4096x1x200, .f32⟩
  | .hbm, ⟨51, _⟩ => ⟨S4096x1x200, .f32⟩
  | .hbm, ⟨52, _⟩ => ⟨S4096x1x64, .f32⟩
  | _, _ => ⟨S4096x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  bcast_S4096x1x64_S4096x200x64_0_1_2 : S4096x1x64.BroadcastsInDim S4096x200x64 (![0, 1, 2] : Fin 3 → Fin S4096x200x64.rank)
  concatenates_S4096x200x64_S4096x200x64_S4096x200x64_S4096x200x64_S4096x200x256_d2 : Shape.Concatenates [S4096x200x64, S4096x200x64, S4096x200x64, S4096x200x64] S4096x200x256 2
  bcast_S80_S1x1x80_2 : S80.BroadcastsInDim S1x1x80 (![2] : Fin 1 → Fin S1x1x80.rank)
  bcast_S1x1x80_S4096x200x80_0_1_2 : S1x1x80.BroadcastsInDim S4096x200x80 (![0, 1, 2] : Fin 3 → Fin S4096x200x80.rank)
  bcast_S_S4096x200x80 : S_.BroadcastsInDim S4096x200x80 (![] : Fin 0 → Fin S4096x200x80.rank)
  bcast_S40_S1x1x40_2 : S40.BroadcastsInDim S1x1x40 (![2] : Fin 1 → Fin S1x1x40.rank)
  bcast_S1x1x40_S4096x200x40_0_1_2 : S1x1x40.BroadcastsInDim S4096x200x40 (![0, 1, 2] : Fin 3 → Fin S4096x200x40.rank)
  bcast_S_S4096x200x40 : S_.BroadcastsInDim S4096x200x40 (![] : Fin 0 → Fin S4096x200x40.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  transposes_S4096x200x1_S4096x1x200_0_2_1 : S4096x200x1.Transposes [0, 2, 1] S4096x1x200
  bcast_S4096_S4096x1_0 : S4096.BroadcastsInDim S4096x1 (![0] : Fin 1 → Fin S4096x1.rank)
  bcast_S200_S1x200_1 : S200.BroadcastsInDim S1x200 (![1] : Fin 1 → Fin S1x200.rank)
  bcast_S1x200_S4096x200_0_1 : S1x200.BroadcastsInDim S4096x200 (![0, 1] : Fin 2 → Fin S4096x200.rank)
  bcast_S4096x1_S4096x200_0_1 : S4096x1.BroadcastsInDim S4096x200 (![0, 1] : Fin 2 → Fin S4096x200.rank)
  bcast_S4096x200_S4096x1x200_0_2 : S4096x200.BroadcastsInDim S4096x1x200 (![0, 2] : Fin 2 → Fin S4096x1x200.rank)
  bcast_S_S4096x1x200 : S_.BroadcastsInDim S4096x1x200 (![] : Fin 0 → Fin S4096x1x200.rank)
  dot_S4096x200x256_S256x80_S4096x200x80_2_0_01_1_n_n_wf : DotDims.WF S4096x200x256 S256x80 S4096x200x80 [2] [0] [0, 1] [1] [] []
  dot_S4096x200x80_S80x40_S4096x200x40_2_0_01_1_n_n_wf : DotDims.WF S4096x200x80 S80x40 S4096x200x40 [2] [0] [0, 1] [1] [] []
  dot_S4096x200x40_S40x1_S4096x200x1_2_0_01_1_n_n_wf : DotDims.WF S4096x200x40 S40x1 S4096x200x1 [2] [0] [0, 1] [1] [] []
  dot_S4096x1x200_S4096x200x64_S4096x1x64_2_1_1_2_0_0_wf : DotDims.WF S4096x1x200 S4096x200x64 S4096x1x64 [2] [1] [1] [2] [0] [0]

variable [Facts₀]

def dot_S4096x200x256_S256x80_S4096x200x80_2_0_01_1_n_n : DotDims S4096x200x256 S256x80 S4096x200x80 where
  lhsContracting := [2]
  rhsContracting := [0]
  lhsNonContracting := [0, 1]
  rhsNonContracting := [1]
  lhsBatch := []
  rhsBatch := []
  wf := dot_S4096x200x256_S256x80_S4096x200x80_2_0_01_1_n_n_wf
def dot_S4096x200x80_S80x40_S4096x200x40_2_0_01_1_n_n : DotDims S4096x200x80 S80x40 S4096x200x40 where
  lhsContracting := [2]
  rhsContracting := [0]
  lhsNonContracting := [0, 1]
  rhsNonContracting := [1]
  lhsBatch := []
  rhsBatch := []
  wf := dot_S4096x200x80_S80x40_S4096x200x40_2_0_01_1_n_n_wf
def dot_S4096x200x40_S40x1_S4096x200x1_2_0_01_1_n_n : DotDims S4096x200x40 S40x1 S4096x200x1 where
  lhsContracting := [2]
  rhsContracting := [0]
  lhsNonContracting := [0, 1]
  rhsNonContracting := [1]
  lhsBatch := []
  rhsBatch := []
  wf := dot_S4096x200x40_S40x1_S4096x200x1_2_0_01_1_n_n_wf
def dot_S4096x1x200_S4096x200x64_S4096x1x64_2_1_1_2_0_0 : DotDims S4096x1x200 S4096x200x64 S4096x1x64 where
  lhsContracting := [2]
  rhsContracting := [1]
  lhsNonContracting := [1]
  rhsNonContracting := [2]
  lhsBatch := [0]
  rhsBatch := [0]
  wf := dot_S4096x1x200_S4096x200x64_S4096x1x64_2_1_1_2_0_0_wf

class Facts : Prop extends Facts₀ where

variable [Facts]
-- ==== Proof.FiniteInputs.lean ====
/-
  Finiteness of the inputs, read back from the precondition.

  The precondition computes, for every float argument `x`, the conjunction over all indices of
  `|x i| < +∞`, and joins the eight results by `and`. If the whole is the bit 1, then every
  conjunct is 1; a conjunction over all indices that is 1 has a 1 at every index; and an extended
  real whose absolute value `max x (-x)` lies strictly below `⊤` is neither `⊥` nor `⊤`, hence
  a real number. This is stated here for arguments 0, 1 and 3.
-/
import proofs.«132216_j89867895701918_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

open Idealize.ShloMosaic

namespace Cert.FiniteInputs

/-- The f32 pattern `0x7F800000` (sign clear, exponent all ones, fraction zero) denotes `+∞`. -/
theorem ofBits_inf_f32 : Ideal.ofBits .f32 0x7F800000#32 = (⊤ : EReal) := by
  simp [Ideal.ofBits, Ideal.ieee]

/-- An extended real whose absolute value `max x (-x)` is strictly below `⊤` is a real number:
    at `⊥` the negation is `⊤`, at `⊤` the value itself is. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `a < b` of extended reals as a bit: the bit is 1 exactly when `a < b`. -/
theorem lt_of_cmp_olt (a b : EReal) (h : Ideal.cmp .olt a b = 1#1) : a < b := by
  unfold Ideal.cmp at h
  by_contra hn
  simp [hn] at h

/-- One array: if the comparison `|x| < +∞` holds (is the bit 1) at index `i`, then `x i` is real. -/
theorem real_of_all {s : Shape} (x : FVec Ideal s .f32) (i : s.Idx)
    (hc : cmpf .olt (Host.absf x) (fun _ => Ideal.ofBits .f32 0x7F800000#32) i = 1#1) :
    ∃ r : ℝ, x i = (r : EReal) := by
  have h1 : Ideal.cmp .olt (max (x i) (-(x i))) (Ideal.ofBits .f32 0x7F800000#32) = 1#1 := hc
  rw [ofBits_inf_f32] at h1
  exact real_of_abs_lt_top (x i) (lt_of_cmp_olt _ _ h1)

/-- The scalar shape has one index. -/
instance : Subsingleton Cert.Pre_finite_inputs.S_.Idx := ⟨fun a b => funext fun d => d.elim0⟩

variable [Cert.Pre_finite_inputs.Facts]

open Cert.Pre_finite_inputs in
/-- If the precondition is the bit 1, every entry of arguments 0, 1 and 3 is a real number. -/
theorem real_of_pre (a0 : FVec Ideal Cert.Pre_finite_inputs.S4096x1x64 .f32)
    (a1 : FVec Ideal Cert.Pre_finite_inputs.S4096x200x64 .f32)
    (a2 : IVec Cert.Pre_finite_inputs.S4096 32)
    (a3 : FVec Ideal Cert.Pre_finite_inputs.S256x80 .f32)
    (a4 : FVec Ideal Cert.Pre_finite_inputs.S80 .f32)
    (a5 : FVec Ideal Cert.Pre_finite_inputs.S80x40 .f32)
    (a6 : FVec Ideal Cert.Pre_finite_inputs.S40 .f32)
    (a7 : FVec Ideal Cert.Pre_finite_inputs.S40x1 .f32)
    (a8 : FVec Ideal Cert.Pre_finite_inputs.S1 .f32)
    (h : Cert.Pre_finite_inputs.fn (F := Ideal) a0 a1 a2 a3 a4 a5 a6 a7 a8 = (fun _ => 1#1)) :
    (∀ i, ∃ r : ℝ, a0 i = (r : EReal)) ∧ (∀ i, ∃ r : ℝ, a1 i = (r : EReal)) ∧
      (∀ i, ∃ r : ℝ, a3 i = (r : EReal)) := by
  have h0 := congrFun h ValueIdx.ix0
  dsimp only [Cert.Pre_finite_inputs.fn, Cert.Pre_finite_inputs.fn_part1,
    Cert.Pre_finite_inputs.fn_part2] at h0
  -- the chain of `and`s, outermost first: each step keeps the left operand, which holds the earlier arguments
  have e38 := IntOp.andi_eq_one.1 h0
  have e33 := IntOp.andi_eq_one.1 e38.1
  have e28 := IntOp.andi_eq_one.1 e33.1
  have e23 := IntOp.andi_eq_one.1 e28.1
  have e18 := IntOp.andi_eq_one.1 e23.1
  have e13 := IntOp.andi_eq_one.1 e18.1
  have e8 := IntOp.andi_eq_one.1 e13.1
  -- `e8` holds the conjunctions of arguments 0 and 1, `e13.2` that of argument 3
  refine ⟨fun i => real_of_all a0 i ?_, fun i => real_of_all a1 i ?_, fun i => real_of_all a3 i ?_⟩
  · exact Host.reduce_andi_all _ _ _ _ _ e8.1 i
  · exact Host.reduce_andi_all _ _ _ _ _ e8.2 i
  · exact Host.reduce_andi_all _ _ _ _ _ e13.2 i

end Cert.FiniteInputs

end
-- ==== Proof.DinSpec.lean ====
/-
  The attention pooling of one batch row, as mathematics on the extended reals.

  One history step of a row carries a query vector q and a key vector k of 64 entries. The first layer mixes the four
  features q, k, q − k and q·k (entry by entry) against the four 64-row bands a, b, c, d of a weight column:
      mixR = Σ q·a + Σ k·b + Σ (q − k)·c + Σ (q·k)·d.
  Folding the difference band into its neighbours gives the same number from three sums,
      mixK = (Σ k·(b − c) + Σ (q·k)·d) + Σ q·(a + c),
  provided every entry is a real number: the step uses (q − k)·c = q·c − k·c and its mirror images, which fail at the
  infinities (mixK_eq_mixR).

  From the first layer's pre-activations `pre t i` (history step t, hidden unit i) the rest of the row is
      h1 = logistic pre,  h2 = logistic (h1·W2 + b2),  score t = Σ_j h2 t j · wd j + bd,
      out e = Σ_t (score t if t < len else 0) · k t e                                            (pool).
  A sum over 256 or 128 positions splits into consecutive runs of 64 (sum_split, sum_four, sum_two), which is how a
  product against a concatenation is read band by band.
-/
import Idealize.ShloMosaic.PureOps.Ideal
import Idealize.ShloMosaic.Lib.ValueIdx

noncomputable section

open scoped BigOperators

namespace Cert.Din

open Idealize.ShloMosaic

/-! ## Sums over consecutive runs -/

/-- A sum over m + n positions is the sum over the first m plus the sum over the last n. -/
theorem sum_split {M : Type*} [AddCommMonoid M] (m n N : ℕ) (hN : N = m + n) (f : Fin N → M) :
    ∑ i, f i = ∑ i : Fin m, f ⟨i.val, by omega⟩ + ∑ i : Fin n, f ⟨m + i.val, by omega⟩ := by
  subst hN
  rw [Fin.sum_univ_add]
  rfl

/-- 128 positions as two runs of 64. -/
theorem sum_two {M : Type*} [AddCommMonoid M] (f : Fin 128 → M) :
    ∑ i, f i = ∑ i : Fin 64, f ⟨i.val, by omega⟩ + ∑ i : Fin 64, f ⟨64 + i.val, by omega⟩ :=
  sum_split 64 64 128 rfl f

/-- 256 positions as four runs of 64. -/
theorem sum_four {M : Type*} [AddCommMonoid M] (f : Fin 256 → M) :
    ∑ i, f i = ∑ i : Fin 64, f ⟨i.val, by omega⟩ + ∑ i : Fin 64, f ⟨64 + i.val, by omega⟩
      + ∑ i : Fin 64, f ⟨128 + i.val, by omega⟩ + ∑ i : Fin 64, f ⟨192 + i.val, by omega⟩ := by
  rw [sum_split 192 64 256 rfl f, sum_split 128 64 192 rfl, sum_split 64 64 128 rfl]

/-! ## The first layer's two spellings -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The four features q, k, q − k, q·k against the four bands a, b, c, d of a weight column. -/
def mixR (q k a b c d : Fin 64 → EReal) : EReal :=
  (∑ j, q j * a j) + (∑ j, k j * b j) + (∑ j, (q j - k j) * c j) + (∑ j, (q j * k j) * d j)

/-- The same with the difference band folded away: k against b − c, q·k against d, q against a + c. -/
def mixK (q k a b c d : Fin 64 → EReal) : EReal :=
  ((∑ j, k j * (b j - c j)) + (∑ j, (q j * k j) * d j)) + (∑ j, q j * (a j + c j))

/-- For real entries the two spellings agree: distributing the products over the differences and sums and regrouping. -/
theorem mixK_eq_mixR (q k a b c d : Fin 64 → EReal) (hq : ∀ j, ∃ r : ℝ, q j = (r : EReal)) (hk : ∀ j, ∃ r : ℝ, k j = (r : EReal))
    (ha : ∀ j, ∃ r : ℝ, a j = (r : EReal)) (hb : ∀ j, ∃ r : ℝ, b j = (r : EReal)) (hc : ∀ j, ∃ r : ℝ, c j = (r : EReal))
    (hd : ∀ j, ∃ r : ℝ, d j = (r : EReal)) : mixK q k a b c d = mixR q k a b c d := by
  choose q' hq' using hq
  choose k' hk' using hk
  choose a' ha' using ha
  choose b' hb' using hb
  choose c' hc' using hc
  choose d' hd' using hd
  obtain rfl : q = fun j => (q' j : EReal) := funext hq'
  obtain rfl : k = fun j => (k' j : EReal) := funext hk'
  obtain rfl : a = fun j => (a' j : EReal) := funext ha'
  obtain rfl : b = fun j => (b' j : EReal) := funext hb'
  obtain rfl : c = fun j => (c' j : EReal) := funext hc'
  obtain rfl : d = fun j => (d' j : EReal) := funext hd'
  simp only [mixK, mixR, ← EReal.coe_mul, ← EReal.coe_sub, ← EReal.coe_add, ← coe_sum]
  refine congrArg _ ?_
  simp only [mul_sub, sub_mul, mul_add, Finset.sum_add_distrib, Finset.sum_sub_distrib]
  ring

/-! ## The rest of the row -/

/-- The pooled output of one batch row at embedding position e, from the first layer's pre-activations, the row's keys
    and length, and the later layers' weights. -/
def pool (pre : Fin 200 → Fin 80 → EReal) (keys : Fin 200 → Fin 64 → EReal) (len : BitVec 32)
    (W2 : Fin 80 → Fin 40 → EReal) (b2 : Fin 40 → EReal) (wd : Fin 40 → EReal) (bd : EReal) (e : Fin 64) : EReal :=
  ∑ t : Fin 200, Scalar.select (IntOp.cmpi .slt (BitVec.ofNat 32 t.val) len)
    ((∑ j : Fin 40, Ideal.logistic ((∑ i : Fin 80, Ideal.logistic (pre t i) * W2 i j) + b2 j) * wd j) + bd)
    (Ideal.ofBits .f32 0x00000000#32) * keys t e

end Cert.Din

end
-- ==== Proof.DinArrays.lean ====
/-
  The result array as one function of the argument arrays.

  The arguments are the queries x0 [4096,1,64], the keys x1 [4096,200,64], the lengths x2 [4096], the first layer's
  weights x3 [256,80] (four bands of 64 rows: against q, k, q − k and q·k) and bias x4 [80], the second layer's x5 [80,40]
  and x6 [40], and the head's x7 [40,1] and x8 [1]. Entry (b, 0, e) of the result is the pooled output of row b
  (Cert.Din.pool) from that row's pre-activations, keys and length. The first layer's pre-activation of row b, step t,
  unit i is the mix of the row's query and the step's key against column i of the weights plus the bias, in the
  reference's spelling (preRef, four bands) or the kernel's (preKer, the difference band folded away); for real
  queries, keys and weights the two are equal (preKer_eq_preRef).
-/
import proofs.«132216_j89867895701918_2_alg».proof.Proof.DinSpec

noncomputable section

open scoped BigOperators

namespace Cert.Din

open Idealize.ShloMosaic Idealize.ShloMosaic.ValueIdx

/-- Row `j` of band `o` (o = 0, 64, 128, 192) of the first layer's weights, column `i`. -/
abbrev band (x3 : (⟨2, ![256, 80]⟩ : Shape).Idx → EReal) (o : ℕ) (ho : o + 64 ≤ 256) (i : Fin 80) (j : Fin 64) : EReal :=
  x3 (ix2 (⟨o + j.val, by omega⟩ : Fin 256) i)

/-- The first layer's pre-activation in the reference's spelling. -/
def preRef (x0 : (⟨3, ![4096, 1, 64]⟩ : Shape).Idx → EReal) (x1 : (⟨3, ![4096, 200, 64]⟩ : Shape).Idx → EReal)
    (x3 : (⟨2, ![256, 80]⟩ : Shape).Idx → EReal) (x4 : (⟨1, ![80]⟩ : Shape).Idx → EReal)
    (b : Fin 4096) (t : Fin 200) (i : Fin 80) : EReal :=
  mixR (fun j => x0 (ix3 b 0 j)) (fun j => x1 (ix3 b t j))
    (band x3 0 (by omega) i) (band x3 64 (by omega) i) (band x3 128 (by omega) i) (band x3 192 (by omega) i) + x4 (ix1 i)

/-- The first layer's pre-activation in the kernel's spelling. -/
def preKer (x0 : (⟨3, ![4096, 1, 64]⟩ : Shape).Idx → EReal) (x1 : (⟨3, ![4096, 200, 64]⟩ : Shape).Idx → EReal)
    (x3 : (⟨2, ![256, 80]⟩ : Shape).Idx → EReal) (x4 : (⟨1, ![80]⟩ : Shape).Idx → EReal)
    (b : Fin 4096) (t : Fin 200) (i : Fin 80) : EReal :=
  mixK (fun j => x0 (ix3 b 0 j)) (fun j => x1 (ix3 b t j))
    (band x3 0 (by omega) i) (band x3 64 (by omega) i) (band x3 128 (by omega) i) (band x3 192 (by omega) i) + x4 (ix1 i)

/-- For real queries, keys and first-layer weights the two spellings are one function. -/
theorem preKer_eq_preRef (x0 : (⟨3, ![4096, 1, 64]⟩ : Shape).Idx → EReal) (x1 : (⟨3, ![4096, 200, 64]⟩ : Shape).Idx → EReal)
    (x3 : (⟨2, ![256, 80]⟩ : Shape).Idx → EReal) (x4 : (⟨1, ![80]⟩ : Shape).Idx → EReal)
    (h0 : ∀ i, ∃ r : ℝ, x0 i = (r : EReal)) (h1 : ∀ i, ∃ r : ℝ, x1 i = (r : EReal)) (h3 : ∀ i, ∃ r : ℝ, x3 i = (r : EReal)) :
    preKer x0 x1 x3 x4 = preRef x0 x1 x3 x4 := by
  funext b t i
  unfold preKer preRef
  rw [mixK_eq_mixR _ _ _ _ _ _ (fun j => h0 _) (fun j => h1 _) (fun j => h3 _) (fun j => h3 _) (fun j => h3 _) (fun j => h3 _)]

/-- The result array from the pre-activations and the other arguments: row by row, the pooled output. -/
def G (pre : Fin 4096 → Fin 200 → Fin 80 → EReal) (x1 : (⟨3, ![4096, 200, 64]⟩ : Shape).Idx → EReal)
    (x2 : (⟨1, ![4096]⟩ : Shape).Idx → BitVec 32) (x5 : (⟨2, ![80, 40]⟩ : Shape).Idx → EReal)
    (x6 : (⟨1, ![40]⟩ : Shape).Idx → EReal) (x7 : (⟨2, ![40, 1]⟩ : Shape).Idx → EReal) (x8 : (⟨1, ![1]⟩ : Shape).Idx → EReal) :
    (⟨3, ![4096, 1, 64]⟩ : Shape).Idx → EReal :=
  fun i => pool (pre (i 0)) (fun t e => x1 (ix3 (i 0) t e)) (x2 (ix1 (i 0))) (fun a c => x5 (ix2 a c)) (fun j => x6 (ix1 j))
    (fun j => x7 (ix2 j 0)) (x8 (ix1 0)) (i 2)

end Cert.Din

end
-- ==== Proof.LibAxisLayout.lean ====
/-
  Arrays of three axes re-laid, each operation read at an index given by its coordinates.

  * two leading axes merged or split: an [A,B,m] array viewed as [N,m] with N = A·B has, in row b·B+t and column j,
    the entry (b,t,j); and back;
  * a unit axis added or dropped: [N,m] ↔ [N,1,m] and [A,B] → [A,B,1];
  * a broadcast between arrays of three axes: each coordinate is kept, or is 0 where the operand's axis has extent one;
  * a sum along the last or the middle axis as a finite sum over that coordinate;
  * a concatenation along the last axis of arrays of three axes, and along the rows of matrices, read in a chosen piece.
-/
import Idealize.ShloMosaic.Lib.Pipeline.Value
import Idealize.ShloMosaic.Lib.ValueIdx
import Idealize.ShloMosaic.PureOps.Ideal.Laws

noncomputable section

open scoped BigOperators

namespace Idealize.ShloMosaic.AxisLayout

open Idealize.ShloMosaic Idealize.ShloMosaic.ValueIdx

variable {α : Type}

/-! ## Two leading axes merged or split -/

/-- An [A,B,m] array viewed as [N,m]: row `b·B+t`, column `j` is the entry (b,t,j). -/
theorem cast_merge_apply {A B N m : ℕ} (x : (⟨3, ![A, B, m]⟩ : Shape).Idx → α)
    (h : (⟨3, ![A, B, m]⟩ : Shape).ShapeCasts ⟨2, ![N, m]⟩) (b : Fin A) (t : Fin B) (j : Fin m) (r : Fin N)
    (hr : r.val = b.val * B + t.val) :
    shapeCast ⟨2, ![N, m]⟩ x h (ix2 r j) = x (ix3 b t j) :=
  shapeCast_apply x h _ _ (by
    rw [Shape.rowMajor_val_three, Shape.rowMajor_val_two]
    show (b.val * B + t.val) * m + j.val = r.val * m + j.val
    rw [hr])

/-- An [N,m] array viewed as [A,B,m]: the entry (b,t,j) is row `b·B+t`, column `j`. -/
theorem cast_split_apply {A B N m : ℕ} (x : (⟨2, ![N, m]⟩ : Shape).Idx → α)
    (h : (⟨2, ![N, m]⟩ : Shape).ShapeCasts ⟨3, ![A, B, m]⟩) (b : Fin A) (t : Fin B) (j : Fin m) (r : Fin N)
    (hr : r.val = b.val * B + t.val) :
    shapeCast ⟨3, ![A, B, m]⟩ x h (ix3 b t j) = x (ix2 r j) :=
  shapeCast_apply x h _ _ (by
    rw [Shape.rowMajor_val_three, Shape.rowMajor_val_two]
    show r.val * m + j.val = (b.val * B + t.val) * m + j.val
    rw [hr])

/-! ## A unit axis added or dropped -/

/-- An [N,m] array viewed as [N,1,m]. -/
theorem cast_addMid_apply {N m : ℕ} (x : (⟨2, ![N, m]⟩ : Shape).Idx → α)
    (h : (⟨2, ![N, m]⟩ : Shape).ShapeCasts ⟨3, ![N, 1, m]⟩) (r : Fin N) (z : Fin 1) (j : Fin m) :
    shapeCast ⟨3, ![N, 1, m]⟩ x h (ix3 r z j) = x (ix2 r j) :=
  shapeCast_apply x h _ _ (by
    rw [Shape.rowMajor_val_three, Shape.rowMajor_val_two]
    show r.val * m + j.val = (r.val * 1 + z.val) * m + j.val
    have hz : z.val = 0 := by omega
    rw [hz, Nat.mul_one, Nat.add_zero])

/-- An [N,1,m] array viewed as [N,m]. -/
theorem cast_dropMid_apply {N m : ℕ} (x : (⟨3, ![N, 1, m]⟩ : Shape).Idx → α)
    (h : (⟨3, ![N, 1, m]⟩ : Shape).ShapeCasts ⟨2, ![N, m]⟩) (r : Fin N) (z : Fin 1) (j : Fin m) :
    shapeCast ⟨2, ![N, m]⟩ x h (ix2 r j) = x (ix3 r z j) :=
  shapeCast_apply x h _ _ (by
    rw [Shape.rowMajor_val_three, Shape.rowMajor_val_two]
    show (r.val * 1 + z.val) * m + j.val = r.val * m + j.val
    have hz : z.val = 0 := by omega
    rw [hz, Nat.mul_one, Nat.add_zero])

/-- An [A,B] array viewed as [A,B,1]. -/
theorem cast_addLast_apply {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) :=
  shapeCast_apply x h _ _ (by
    rw [Shape.rowMajor_val_three, Shape.rowMajor_val_two]
    show a.val * B + b.val = (a.val * B + b.val) * 1 + z.val
    have hz : z.val = 0 := by omega
    rw [hz, Nat.mul_one, Nat.add_zero])

/-! ## A broadcast between arrays of three axes -/

/-- A broadcast of an [a0,a1,a2] array to [b0,b1,b2], read at (j0,j1,j2): the operand at the coordinates that are
    `j`'s where the operand's axis is not of extent one, and 0 where it is. -/
theorem bcast3_apply {a0 a1 a2 b0 b1 b2 : ℕ} (x : (⟨3, ![a0, a1, a2]⟩ : Shape).Idx → α)
    (h : (⟨3, ![a0, a1, a2]⟩ : Shape).Broadcasts ⟨3, ![b0, b1, b2]⟩)
    (j0 : Fin b0) (j1 : Fin b1) (j2 : Fin b2) (k0 : Fin a0) (k1 : Fin a1) (k2 : Fin a2)
    (h0 : k0.val = if a0 = 1 then 0 else j0.val) (h1 : k1.val = if a1 = 1 then 0 else j1.val)
    (h2 : k2.val = if a2 = 1 then 0 else j2.val) :
    broadcastTo ⟨3, ![b0, b1, b2]⟩ x h (ix3 j0 j1 j2) = x (ix3 k0 k1 k2) :=
  broadcastTo_apply x h _ _ (fun a => by
    match a with
    | ⟨0, _⟩ => exact h0
    | ⟨1, _⟩ => exact h1
    | ⟨2, _⟩ => exact h2)

/-! ## A sum along one axis -/

/-- The reduced index (a,b) with the last coordinate `k` put back is (a,b,k). -/
theorem lift_last {A B m : ℕ} (h : (⟨3, ![A, B, m]⟩ : Shape).Reduces [2] (⟨2, ![A, B]⟩ : Shape)) (a : Fin A) (b : Fin B)
    (k : Fin ((⟨3, ![A, B, m]⟩ : Shape).size 2)) : h.lift (ix2 a b) k = ix3 a b (⟨k.val, k.isLt⟩ : Fin m) := by
  funext c; apply Fin.ext
  fin_cases c <;> rfl

/-- The reduced index (a,e) with the middle coordinate `k` put back is (a,k,e). -/
theorem lift_mid {A B m : ℕ} (h : (⟨3, ![A, B, m]⟩ : Shape).Reduces [1] (⟨2, ![A, m]⟩ : Shape)) (a : Fin A) (e : Fin m)
    (k : Fin ((⟨3, ![A, B, m]⟩ : Shape).size 1)) : h.lift (ix2 a e) k = ix3 a (⟨k.val, k.isLt⟩ : Fin B) e := by
  funext c; apply Fin.ext
  fin_cases c <;> rfl

/-- A sum along the last axis of an [A,B,m] array, at (a,b): the sum over `k` of the entries (a,b,k). -/
theorem sum_last_apply {A B m : ℕ} {φ : FTy} (x : FVec Ideal (⟨3, ![A, B, m]⟩ : Shape) φ) (acc : BitVec φ.bits)
    (h : (⟨3, ![A, B, m]⟩ : Shape).Reduces [2] (⟨2, ![A, B]⟩ : Shape)) (hφ : FKind.Formats φ) (hacc : acc = FKind.add.neutral φ hφ)
    (a : Fin A) (b : Fin B) :
    multiReduction .add [2] (⟨2, ![A, B]⟩ : Shape) x acc h hφ hacc (ix2 a b) = ∑ k : Fin m, (x (ix3 a b k) : EReal) :=
  (Ideal.multiReduction_add_single x acc h hφ hacc (ix2 a b)).trans
    (Finset.sum_congr rfl fun k _ => congrArg x (lift_last h a b k))

/-- A sum along the middle axis of an [A,B,m] array, at (a,e): the sum over `k` of the entries (a,k,e). -/
theorem sum_mid_apply {A B m : ℕ} {φ : FTy} (x : FVec Ideal (⟨3, ![A, B, m]⟩ : Shape) φ) (acc : BitVec φ.bits)
    (h : (⟨3, ![A, B, m]⟩ : Shape).Reduces [1] (⟨2, ![A, m]⟩ : Shape)) (hφ : FKind.Formats φ) (hacc : acc = FKind.add.neutral φ hφ)
    (a : Fin A) (e : Fin m) :
    multiReduction .add [1] (⟨2, ![A, m]⟩ : Shape) x acc h hφ hacc (ix2 a e) = ∑ k : Fin B, (x (ix3 a k e) : EReal) :=
  (Ideal.multiReduction_add_single x acc h hφ hacc (ix2 a e)).trans
    (Finset.sum_congr rfl fun k _ => congrArg x (lift_mid h a e k))

/-- The sum along the last axis as a kernel prints it for f32: the accumulator the literal zero pattern, its side
    condition the plain equation of two literals. -/
theorem sum_last_zero {A B m : ℕ} (x : FVec Ideal (⟨3, ![A, B, m]⟩ : Shape) .f32)
    (h : (⟨3, ![A, B, m]⟩ : Shape).Reduces [2] (⟨2, ![A, B]⟩ : Shape)) (hφ : FKind.Formats .f32)
    (hacc : (0x00000000#32 : BitVec 32) = 0x00000000#32) (a : Fin A) (b : Fin B) :
    multiReduction .add [2] (⟨2, ![A, B]⟩ : Shape) x 0x00000000#32 h hφ hacc (ix2 a b) = ∑ k : Fin m, (x (ix3 a b k) : EReal) :=
  sum_last_apply x 0x00000000#32 h hφ hacc a b

/-- The sum along the middle axis as a kernel prints it for f32. -/
theorem sum_mid_zero {A B m : ℕ} (x : FVec Ideal (⟨3, ![A, B, m]⟩ : Shape) .f32)
    (h : (⟨3, ![A, B, m]⟩ : Shape).Reduces [1] (⟨2, ![A, m]⟩ : Shape)) (hφ : FKind.Formats .f32)
    (hacc : (0x00000000#32 : BitVec 32) = 0x00000000#32) (a : Fin A) (e : Fin m) :
    multiReduction .add [1] (⟨2, ![A, m]⟩ : Shape) x 0x00000000#32 h hφ hacc (ix2 a e) = ∑ k : Fin B, (x (ix3 a k e) : EReal) :=
  sum_mid_apply x 0x00000000#32 h hφ hacc a e

/-! ## A concatenation read in a chosen piece -/

/-- A concatenation of arrays of three axes along the LAST axis, read at (a,b,r) with `r` in piece `k`: that piece
    at (a,b,j), where `j` is `r` less the extents `pre` of the pieces before it. -/
theorem concat_last_piece {A B M : ℕ} (xs : List ((s : Shape) × (s.Idx → α)))
    (h : Shape.Concatenates (xs.map (·.1)) (⟨3, ![A, B, M]⟩ : Shape) 2)
    (k : ℕ) (hk : k < xs.length) {m₁ : ℕ} (x₁ : (⟨3, ![A, B, m₁]⟩ : Shape).Idx → α)
    (hxk : xs[k] = ⟨(⟨3, ![A, B, m₁]⟩ : Shape), x₁⟩) (pre : ℕ)
    (hpre : (((xs.take k).map (·.1)).map fun s : Shape =>
      if h : s.rank = (⟨3, ![A, B, M]⟩ : Shape).rank then s.size ((2 : Fin (⟨3, ![A, B, M]⟩ : Shape).rank).cast h.symm) else 0).sum = pre)
    (a : Fin A) (b : Fin B) (j : Fin m₁) (r : Fin M) (hr : pre + j.val = r.val) :
    concatenate (⟨3, ![A, B, M]⟩ : Shape) 2 xs h (ix3 a b r) = x₁ (ix3 a b j) :=
  concatenate_apply_piece 2 xs h (ix3 a b r) k hk _ x₁ hxk rfl pre hpre (ix3 a b j)
    (fun c hc => by
      match c with
      | ⟨0, _⟩ => rfl
      | ⟨1, _⟩ => rfl
      | ⟨2, _⟩ => exact absurd rfl hc)
    hr

/-- A concatenation of matrices along the ROWS, read at (r,c) with `r` in piece `k`: that piece at (j,c). -/
theorem concat_rows_piece {M N : ℕ} (xs : List ((s : Shape) × (s.Idx → α)))
    (h : Shape.Concatenates (xs.map (·.1)) (⟨2, ![M, N]⟩ : Shape) 0)
    (k : ℕ) (hk : k < xs.length) {m₁ : ℕ} (x₁ : (⟨2, ![m₁, N]⟩ : Shape).Idx → α)
    (hxk : xs[k] = ⟨(⟨2, ![m₁, N]⟩ : Shape), x₁⟩) (pre : ℕ)
    (hpre : (((xs.take k).map (·.1)).map fun s : Shape =>
      if h : s.rank = (⟨2, ![M, N]⟩ : Shape).rank then s.size ((0 : Fin (⟨2, ![M, N]⟩ : Shape).rank).cast h.symm) else 0).sum = pre)
    (j : Fin m₁) (c : Fin N) (r : Fin M) (hr : pre + j.val = r.val) :
    concatenate (⟨2, ![M, N]⟩ : Shape) 0 xs h (ix2 r c) = x₁ (ix2 j c) :=
  concatenate_apply_piece 0 xs h (ix2 r c) k hk _ x₁ hxk rfl pre hpre (ix2 j c)
    (fun d hd => by
      match d with
      | ⟨0, _⟩ => exact absurd rfl hd
      | ⟨1, _⟩ => rfl)
    hr

end Idealize.ShloMosaic.AxisLayout

end
-- ==== Proof.DinReference.lean ====
/-
  The reference program's result, stage by stage, is the pooled output of every row.

  For row b and embedding position e the reference computes
      Σ_t (score b t if t < len b else 0) · keys (b,t,e),
      score b t = Σ_j h2 (b,t,j) · Wd (j,0) + bd 0,
      h2 = 1 / (1 + exp (−(Σ_i h1 · W2 + b2))),   h1 = 1 / (1 + exp (−(Σ_{k<256} att (b,t,k) · W1 (k,i) + b1 i))),
  where att (b,t,·) is the concatenation of q, keys, q − keys and q·keys (64 entries each, q the row's query). Read one
  stage at a time, innermost first: the sum over the 256 concatenated positions splits into the four bands of 64, which
  is the first layer's pre-activation in the reference's spelling (Cert.Din.preRef); 1 / (1 + exp (−x)) is the logistic
  function; the comparison of the step counter with the row's length selects the score or zero; and the last
  contraction over the steps is the pooled sum (Cert.Din.pool), so the whole is Cert.Din.G at preRef.
-/
import proofs.«132216_j89867895701918_2_alg».proof.Proof.DinArrays
import proofs.«132216_j89867895701918_2_alg».proof.Proof.LibAxisLayout
import proofs.«132216_j89867895701918_2_alg».proof.Proof.Gen.ReferenceIdeal.Read
import Idealize.ShloMosaic.Lib.IdealHost
import Idealize.ShloMosaic.Lib.Pipeline.Value
import Idealize.ShloMosaic.Lib.ValueIdx
import Idealize.ShloMosaic.PureOps.Ideal.Laws

noncomputable section

open scoped BigOperators

namespace Cert.Din

open Cert.ReferenceIdeal Cert.ReferenceIdeal.Gen Cert.ReferenceIdeal.Read Idealize.ShloMosaic Idealize.ShloMosaic.ValueIdx

variable (x0 : (⟨S4096x1x64, .f32⟩ : BufTy).Contents (Elt Ideal)) (x1 : (⟨S4096x200x64, .f32⟩ : BufTy).Contents (Elt Ideal))
  (x2 : (⟨S4096, .i32⟩ : BufTy).Contents (Elt Ideal)) (x3 : (⟨S256x80, .f32⟩ : BufTy).Contents (Elt Ideal))
  (x4 : (⟨S80, .f32⟩ : BufTy).Contents (Elt Ideal)) (x5 : (⟨S80x40, .f32⟩ : BufTy).Contents (Elt Ideal))
  (x6 : (⟨S40, .f32⟩ : BufTy).Contents (Elt Ideal)) (x7 : (⟨S40x1, .f32⟩ : BufTy).Contents (Elt Ideal))
  (x8 : (⟨S1, .f32⟩ : BufTy).Contents (Elt Ideal))

/-! ## The concatenated features -/

/-- The query broadcast over the steps: entry (b,t,j) is the row's query at j. -/
theorem v0_at (b : Fin 4096) (t : Fin 200) (j : Fin 64) :
    val_main_v0 (F := Ideal) x0 (ix3 b t j) = x0 (ix3 b 0 j) := by
  rw [val_main_v0_apply]
  refine congrArg x0 (funext fun a => Fin.ext ?_)
  match a with
  | ⟨0, _⟩ => rfl
  | ⟨1, _⟩ => rfl
  | ⟨2, _⟩ => rfl

/-- Positions 0‥63 of the concatenation are the query. -/
theorem v3_band0 (b : Fin 4096) (t : Fin 200) (j : Fin 64) (r : Fin 256) (hr : 0 + j.val = r.val) :
    val_main_v3 (F := Ideal) x0 x1 (ix3 b t r) = x0 (ix3 b 0 j) := by
  unfold val_main_v3
  rw [AxisLayout.concat_last_piece _ _ 0 (by simp) (val_main_v0 (F := Ideal) x0) rfl 0 rfl b t j r hr, v0_at]

/-- Positions 64‥127 are the keys. -/
theorem v3_band1 (b : Fin 4096) (t : Fin 200) (j : Fin 64) (r : Fin 256) (hr : 64 + j.val = r.val) :
    val_main_v3 (F := Ideal) x0 x1 (ix3 b t r) = x1 (ix3 b t j) := by
  unfold val_main_v3
  rw [AxisLayout.concat_last_piece _ _ 1 (by simp) x1 rfl 64 rfl b t j r hr]

/-- Positions 128‥191 are the differences query − key. -/
theorem v3_band2 (b : Fin 4096) (t : Fin 200) (j : Fin 64) (r : Fin 256) (hr : 128 + j.val = r.val) :
    val_main_v3 (F := Ideal) x0 x1 (ix3 b t r) = x0 (ix3 b 0 j) - x1 (ix3 b t j) := by
  unfold val_main_v3
  rw [AxisLayout.concat_last_piece _ _ 2 (by simp) (val_main_v1 (F := Ideal) x0 x1) rfl 128 rfl b t j r hr,
    val_main_v1_apply, v0_at]
  rfl

/-- Positions 192‥255 are the products query · key. -/
theorem v3_band3 (b : Fin 4096) (t : Fin 200) (j : Fin 64) (r : Fin 256) (hr : 192 + j.val = r.val) :
    val_main_v3 (F := Ideal) x0 x1 (ix3 b t r) = x0 (ix3 b 0 j) * x1 (ix3 b t j) := by
  unfold val_main_v3
  rw [AxisLayout.concat_last_piece _ _ 3 (by simp) (val_main_v2 (F := Ideal) x0 x1) rfl 192 rfl b t j r hr,
    val_main_v2_apply, v0_at]
  rfl

/-! ## The first layer -/

/-- The contraction's left index at (b,t,i), position k, is (b,t,k). -/
theorem lidx_v4_ix (b : Fin 4096) (t : Fin 200) (i : Fin 80) (k : Fin 256) :
    lidx_main_v4 (ix3 b t i) k = ix3 b t k :=
  funext fun a => Fin.ext (by
    match a with
    | ⟨0, _⟩ => rfl
    | ⟨1, _⟩ => rfl
    | ⟨2, _⟩ => rfl)

/-- The contraction's right index at (b,t,i), position k, is (k,i). -/
theorem ridx_v4_ix (b : Fin 4096) (t : Fin 200) (i : Fin 80) (k : Fin 256) :
    ridx_main_v4 (ix3 b t i) k = ix2 k i :=
  funext fun a => Fin.ext (by
    match a with
    | ⟨0, _⟩ => rfl
    | ⟨1, _⟩ => rfl)

/-- The product against the first layer's weights at (b,t,i): the sum over the 256 concatenated positions, split into the
    four bands, is the mix of the query and the key against the four bands of column i. -/
theorem v4_at (b : Fin 4096) (t : Fin 200) (i : Fin 80) :
    val_main_v4 (F := Ideal) x0 x1 x3 (ix3 b t i)
      = mixR (fun j => x0 (ix3 b 0 j)) (fun j => x1 (ix3 b t j))
          (band x3 0 (by omega) i) (band x3 64 (by omega) i) (band x3 128 (by omega) i) (band x3 192 (by omega) i) := by
  rw [val_main_v4_apply, sum_four]
  unfold mixR
  refine congrArg₂ (· + ·) (congrArg₂ (· + ·) (congrArg₂ (· + ·) ?_ ?_) ?_) ?_
  · refine Finset.sum_congr rfl fun j _ => ?_
    rw [lidx_v4_ix, ridx_v4_ix, v3_band0 x0 x1 b t j _ (Nat.zero_add _)]
    exact congrArg (fun r : Fin 256 => x0 (ix3 b 0 j) * x3 (ix2 r i)) (Fin.ext (Nat.zero_add _).symm)
  · refine Finset.sum_congr rfl fun j _ => ?_
    rw [lidx_v4_ix, ridx_v4_ix, v3_band1 x0 x1 b t j _ rfl]
  · refine Finset.sum_congr rfl fun j _ => ?_
    rw [lidx_v4_ix, ridx_v4_ix, v3_band2 x0 x1 b t j _ rfl]
  · refine Finset.sum_congr rfl fun j _ => ?_
    rw [lidx_v4_ix, ridx_v4_ix, v3_band3 x0 x1 b t j _ rfl]

/-- With the bias added: the first layer's pre-activation, in the reference's spelling. -/
theorem v7_at (b : Fin 4096) (t : Fin 200) (i : Fin 80) :
    val_main_v7 (F := Ideal) x0 x1 x3 x4 (ix3 b t i) = preRef x0 x1 x3 x4 b t i := by
  rw [val_main_v7_apply, v4_at, val_main_v6_apply, val_main_v5_apply]
  unfold preRef
  refine congrArg (fun r => mixR (fun j => x0 (ix3 b 0 j)) (fun j => x1 (ix3 b t j))
    (band x3 0 (by omega) i) (band x3 64 (by omega) i) (band x3 128 (by omega) i) (band x3 192 (by omega) i) + x4 r) ?_
  funext a
  match a with
  | ⟨0, _⟩ => rfl

/-- The reference spells the logistic function 1 / (1 + exp (−x)) with the constant one as its f32 pattern. -/
theorem logistic_spelling (x : EReal) :
    Ideal.div (Ideal.ofBits .f32 0x3F800000#32) (Ideal.ofBits .f32 0x3F800000#32 + Ideal.exp (-x)) = Ideal.logistic x := by
  rw [Ideal.ofBits_one_f32]
  rfl

/-- The first hidden layer at (b,t,i): the logistic function of the pre-activation. -/
theorem v13_at (b : Fin 4096) (t : Fin 200) (i : Fin 80) :
    val_main_v13 (F := Ideal) x0 x1 x3 x4 (ix3 b t i) = Ideal.logistic (preRef x0 x1 x3 x4 b t i) := by
  rw [val_main_v13_apply, val_main_v12_apply, val_main_cst_0_apply, val_main_v11_apply, val_main_v10_apply,
    val_main_cst_apply, val_main_v9_apply, val_main_v8_apply, v7_at]
  exact logistic_spelling _

/-! ## The second layer -/

/-- The second contraction's left index at (b,t,j), position k, is (b,t,k). -/
theorem lidx_v14_ix (b : Fin 4096) (t : Fin 200) (j : Fin 40) (k : Fin 80) :
    lidx_main_v14 (ix3 b t j) k = ix3 b t k :=
  funext fun a => Fin.ext (by
    match a with
    | ⟨0, _⟩ => rfl
    | ⟨1, _⟩ => rfl
    | ⟨2, _⟩ => rfl)

/-- Its right index is (k,j). -/
theorem ridx_v14_ix (b : Fin 4096) (t : Fin 200) (j : Fin 40) (k : Fin 80) :
    ridx_main_v14 (ix3 b t j) k = ix2 k j :=
  funext fun a => Fin.ext (by
    match a with
    | ⟨0, _⟩ => rfl
    | ⟨1, _⟩ => rfl)

/-- The second layer's pre-activation at (b,t,j): the first hidden layer against column j of the weights, plus the bias. -/
theorem v17_at (b : Fin 4096) (t : Fin 200) (j : Fin 40) :
    val_main_v17 (F := Ideal) x0 x1 x3 x4 x5 x6 (ix3 b t j)
      = (∑ i : Fin 80, Ideal.logistic (preRef x0 x1 x3 x4 b t i) * x5 (ix2 i j)) + x6 (ix1 j) := by
  rw [val_main_v17_apply, val_main_v14_apply, val_main_v16_apply, val_main_v15_apply]
  refine congrArg₂ (· + ·) ?_ ?_
  · refine Finset.sum_congr rfl fun k _ => ?_
    rw [lidx_v14_ix, ridx_v14_ix, v13_at]
  · refine congrArg x6 (funext fun a => ?_)
    match a with
    | ⟨0, _⟩ => rfl

/-- The second hidden layer at (b,t,j): the logistic function of that. -/
theorem v23_at (b : Fin 4096) (t : Fin 200) (j : Fin 40) :
    val_main_v23 (F := Ideal) x0 x1 x3 x4 x5 x6 (ix3 b t j)
      = Ideal.logistic ((∑ i : Fin 80, Ideal.logistic (preRef x0 x1 x3 x4 b t i) * x5 (ix2 i j)) + x6 (ix1 j)) := by
  rw [val_main_v23_apply, val_main_v22_apply, val_main_cst_2_apply, val_main_v21_apply, val_main_v20_apply,
    val_main_cst_1_apply, val_main_v19_apply, val_main_v18_apply, v17_at]
  exact logistic_spelling _

/-! ## The score -/

/-- The head's contraction: left index at (b,t,0), position k, is (b,t,k). -/
theorem lidx_v24_ix (b : Fin 4096) (t : Fin 200) (z : Fin 1) (k : Fin 40) :
    lidx_main_v24 (ix3 b t z) k = ix3 b t k :=
  funext fun a => Fin.ext (by
    match a with
    | ⟨0, _⟩ => rfl
    | ⟨1, _⟩ => rfl
    | ⟨2, _⟩ => rfl)

/-- Its right index is (k,0). -/
theorem ridx_v24_ix (b : Fin 4096) (t : Fin 200) (z : Fin 1) (k : Fin 40) :
    ridx_main_v24 (ix3 b t z) k = ix2 k z :=
  funext fun a => Fin.ext (by
    match a with
    | ⟨0, _⟩ => rfl
    | ⟨1, _⟩ => rfl)

/-- The score of step t of row b: the second hidden layer against the head's weights, plus its bias. -/
theorem v27_at (b : Fin 4096) (t : Fin 200) (z : Fin 1) :
    val_main_v27 (F := Ideal) x0 x1 x3 x4 x5 x6 x7 x8 (ix3 b t z)
      = (∑ j : Fin 40, Ideal.logistic ((∑ i : Fin 80, Ideal.logistic (preRef x0 x1 x3 x4 b t i) * x5 (ix2 i j)) + x6 (ix1 j))
          * x7 (ix2 j 0)) + x8 (ix1 0) := by
  obtain rfl : z = 0 := Subsingleton.elim _ _
  rw [val_main_v27_apply, val_main_v24_apply, val_main_v26_apply, val_main_v25_apply]
  refine congrArg₂ (· + ·) ?_ ?_
  · refine Finset.sum_congr rfl fun k _ => ?_
    rw [lidx_v24_ix, ridx_v24_ix, v23_at]
  · refine congrArg x8 (funext fun a => ?_)
    match a with
    | ⟨0, _⟩ => rfl

/-! ## The mask and the pooled sum -/

/-- The masked score at (b,0,t): the score where the step counter t is below the row's length (as signed words), else
    zero. -/
theorem v37_at (b : Fin 4096) (z : Fin 1) (t : Fin 200) :
    val_main_v37 (F := Ideal) x0 x1 x2 x3 x4 x5 x6 x7 x8 (ix3 b z t)
      = Scalar.select (IntOp.cmpi .slt (BitVec.ofNat 32 t.val) (x2 (ix1 b)))
          ((∑ j : Fin 40, Ideal.logistic ((∑ i : Fin 80, Ideal.logistic (preRef x0 x1 x3 x4 b t i) * x5 (ix2 i j)) + x6 (ix1 j))
            * x7 (ix2 j 0)) + x8 (ix1 0))
          (Ideal.ofBits .f32 0x00000000#32) := by
  have e28 : idx_main_v28 (ix3 b z t) = ix3 b t z := funext fun a => Fin.ext (by
    match a with
    | ⟨0, _⟩ => rfl
    | ⟨1, _⟩ => rfl
    | ⟨2, _⟩ => rfl)
  have e30 : idx_main_v30 (idx_main_v33 (idx_main_v35 (ix3 b z t))) = ix1 b := funext fun a => by
    match a with
    | ⟨0, _⟩ => rfl
  rw [val_main_v37_apply, val_main_v35_apply, val_main_v34_apply, val_main_v32_apply, val_main_v31_apply,
    val_main_v29_apply, val_main_v33_apply, val_main_v30_apply, val_main_v28_apply, val_main_v36_apply,
    val_main_cst_3_apply, e28, e30, v27_at]
  rfl

/-- The last contraction's left index at (b,0,e), step t, is (b,0,t). -/
theorem lidx_v38_ix (b : Fin 4096) (z : Fin 1) (e : Fin 64) (t : Fin 200) :
    lidx_main_v38 (ix3 b z e) t = ix3 b z t :=
  funext fun a => Fin.ext (by
    match a with
    | ⟨0, _⟩ => rfl
    | ⟨1, _⟩ => rfl
    | ⟨2, _⟩ => rfl)

/-- Its right index is (b,t,e). -/
theorem ridx_v38_ix (b : Fin 4096) (z : Fin 1) (e : Fin 64) (t : Fin 200) :
    ridx_main_v38 (ix3 b z e) t = ix3 b t e :=
  funext fun a => Fin.ext (by
    match a with
    | ⟨0, _⟩ => rfl
    | ⟨1, _⟩ => rfl
    | ⟨2, _⟩ => rfl)

/-- THE REFERENCE'S RESULT: the result array the reference program computes is, row by row and position by position,
    the pooled output from the pre-activations in the reference's spelling. -/
theorem ref_eq (x0 : (⟨Cert.ReferenceIdeal.S4096x1x64, .f32⟩ : BufTy).Contents (Elt Ideal))
    (x1 : (⟨Cert.ReferenceIdeal.S4096x200x64, .f32⟩ : BufTy).Contents (Elt Ideal))
    (x2 : (⟨Cert.ReferenceIdeal.S4096, .i32⟩ : BufTy).Contents (Elt Ideal))
    (x3 : (⟨Cert.ReferenceIdeal.S256x80, .f32⟩ : BufTy).Contents (Elt Ideal))
    (x4 : (⟨Cert.ReferenceIdeal.S80, .f32⟩ : BufTy).Contents (Elt Ideal))
    (x5 : (⟨Cert.ReferenceIdeal.S80x40, .f32⟩ : BufTy).Contents (Elt Ideal))
    (x6 : (⟨Cert.ReferenceIdeal.S40, .f32⟩ : BufTy).Contents (Elt Ideal))
    (x7 : (⟨Cert.ReferenceIdeal.S40x1, .f32⟩ : BufTy).Contents (Elt Ideal))
    (x8 : (⟨Cert.ReferenceIdeal.S1, .f32⟩ : BufTy).Contents (Elt Ideal)) :
    Cert.ReferenceIdeal.Read.val_main_v38 (F := Ideal) x0 x1 x2 x3 x4 x5 x6 x7 x8
      = Cert.Din.G (Cert.Din.preRef x0 x1 x3 x4) x1 x2 x5 x6 x7 x8 := by
  funext i
  obtain ⟨b, z, e, rfl⟩ : ∃ (b : Fin 4096) (z : Fin 1) (e : Fin 64), i = ix3 b z e := ⟨i 0, i 1, i 2, eq_ix3 i⟩
  rw [val_main_v38_apply]
  show _ = pool (preRef x0 x1 x3 x4 b) (fun t e => x1 (ix3 b t e)) (x2 (ix1 b)) (fun a c => x5 (ix2 a c))
    (fun j => x6 (ix1 j)) (fun j => x7 (ix2 j 0)) (x8 (ix1 0)) e
  unfold pool
  refine Finset.sum_congr rfl fun t _ => ?_
  rw [lidx_v38_ix, ridx_v38_ix, v37_at]

end Cert.Din

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.DinKernelBody.lean ====
/-
  The kernel's arithmetic on one block of 32 batch rows, read entry by entry.

  The body works on a query block x0 [32,1,64], a key block x1 [32,200,64], the rows' lengths x2 [32,1], the folded
  first-layer weights x3 [128,80] (rows 0–63 against the keys, rows 64–127 against query·key) and x4 [64,80] (against the
  query), the biases x5 [1,80] and x7 [1,40], the second layer x6 [80,40], the head's row x8 [1,40] and bias x9 [1,1].
  It flattens (row, step) into 6400 matrix rows for the two large products and back; at the extended reals a narrowing
  of the float format is the identity and a matrix-unit product into zeros is the plain finite sum, so:

  * preBlk b t i, the first layer's pre-activation, is Σ_j k_j·x3(j,i) + Σ_j (q_j·k_j)·x3(64+j,i) + Σ_j q_j·x4(j,i) + x5(0,i)
    with q = x0(b,0,·) and k = x1(b,t,·): the 128-wide product read in its two halves of the concatenation [k, q·k];
  * pay3_apply: the second layer's product at (b,t,j) is Σ_i logistic(preBlk b t i)·x6(i,j);
  * pay1_apply: from those products, the head's score per step (a sum over the 40 units, plus the bias), masked by
    step < length, times the keys and summed over the 200 steps;
  * body_apply: together, the body's stored entry (b,·,e) is Cert.Din.pool of row b of the block.
-/
import proofs.«132216_j89867895701918_2_alg».proof.Proof.Gen.KernelIdeal.Skeleton
import proofs.«132216_j89867895701918_2_alg».proof.Proof.DinSpec
import proofs.«132216_j89867895701918_2_alg».proof.Proof.LibAxisLayout
import proofs.«132216_j89867895701918_2_alg».proof.Proof.LibDotIx2
import Idealize.ShloMosaic.Lib.Pipeline.Value
import Idealize.ShloMosaic.Lib.ValueIdx
import Idealize.ShloMosaic.PureOps.Ideal.Laws

noncomputable section

open scoped BigOperators

namespace Cert.Din.Body

open Cert.KernelIdeal Cert.KernelIdeal.Gen Idealize.ShloMosaic Idealize.ShloMosaic.ValueIdx Idealize.ShloMosaic.AxisLayout

/-! ## The three matrix products are plain ones -/

/-- The [6400,128] × [128,80] product contracts the left columns with the right rows. -/
theorem plain1 : PlainDot dot_S6400x128_S128x80_S6400x80_1_0_0_1_n_n where
  rank := rfl
  size := rfl
  l0 := fun j q => by
    unfold DotDims.lhsIdx
    rw [dif_neg (show ¬(0 : Fin S6400x128.rank) ∈ dot_S6400x128_S128x80_S6400x80_1_0_0_1_n_n.lhsBatch by decide),
      dif_pos (show (0 : Fin S6400x128.rank) ∈ dot_S6400x128_S128x80_S6400x80_1_0_0_1_n_n.lhsNonContracting by decide)]
    rfl
  l1 := fun j q => dot_S6400x128_S128x80_S6400x80_1_0_0_1_n_n.lhsIdx_val_of_single rfl j q
  r0 := fun j q => dot_S6400x128_S128x80_S6400x80_1_0_0_1_n_n.rhsIdx_val_of_single rfl j q
  r1 := fun j q => by
    unfold DotDims.rhsIdx
    rw [dif_neg (show ¬(1 : Fin S128x80.rank) ∈ dot_S6400x128_S128x80_S6400x80_1_0_0_1_n_n.rhsBatch by decide),
      dif_pos (show (1 : Fin S128x80.rank) ∈ dot_S6400x128_S128x80_S6400x80_1_0_0_1_n_n.rhsNonContracting by decide)]
    rfl

/-- So does the [32,64] × [64,80] product. -/
theorem plain2 : PlainDot dot_S32x64_S64x80_S32x80_1_0_0_1_n_n where
  rank := rfl
  size := rfl
  l0 := fun j q => by
    unfold DotDims.lhsIdx
    rw [dif_neg (show ¬(0 : Fin S32x64.rank) ∈ dot_S32x64_S64x80_S32x80_1_0_0_1_n_n.lhsBatch by decide),
      dif_pos (show (0 : Fin S32x64.rank) ∈ dot_S32x64_S64x80_S32x80_1_0_0_1_n_n.lhsNonContracting by decide)]
    rfl
  l1 := fun j q => dot_S32x64_S64x80_S32x80_1_0_0_1_n_n.lhsIdx_val_of_single rfl j q
  r0 := fun j q => dot_S32x64_S64x80_S32x80_1_0_0_1_n_n.rhsIdx_val_of_single rfl j q
  r1 := fun j q => by
    unfold DotDims.rhsIdx
    rw [dif_neg (show ¬(1 : Fin S64x80.rank) ∈ dot_S32x64_S64x80_S32x80_1_0_0_1_n_n.rhsBatch by decide),
      dif_pos (show (1 : Fin S64x80.rank) ∈ dot_S32x64_S64x80_S32x80_1_0_0_1_n_n.rhsNonContracting by decide)]
    rfl

/-- And the [6400,80] × [80,40] product. -/
theorem plain3 : PlainDot dot_S6400x80_S80x40_S6400x40_1_0_0_1_n_n where
  rank := rfl
  size := rfl
  l0 := fun j q => by
    unfold DotDims.lhsIdx
    rw [dif_neg (show ¬(0 : Fin S6400x80.rank) ∈ dot_S6400x80_S80x40_S6400x40_1_0_0_1_n_n.lhsBatch by decide),
      dif_pos (show (0 : Fin S6400x80.rank) ∈ dot_S6400x80_S80x40_S6400x40_1_0_0_1_n_n.lhsNonContracting by decide)]
    rfl
  l1 := fun j q => dot_S6400x80_S80x40_S6400x40_1_0_0_1_n_n.lhsIdx_val_of_single rfl j q
  r0 := fun j q => dot_S6400x80_S80x40_S6400x40_1_0_0_1_n_n.rhsIdx_val_of_single rfl j q
  r1 := fun j q => by
    unfold DotDims.rhsIdx
    rw [dif_neg (show ¬(1 : Fin S80x40.rank) ∈ dot_S6400x80_S80x40_S6400x40_1_0_0_1_n_n.rhsBatch by decide),
      dif_pos (show (1 : Fin S80x40.rank) ∈ dot_S6400x80_S80x40_S6400x40_1_0_0_1_n_n.rhsNonContracting by decide)]
    rfl

variable (x0 : Vec Ideal S32x1x64 .f32) (x1 : Vec Ideal S32x200x64 .f32) (x3 : Vec Ideal S128x80 .f32)
  (x4 : Vec Ideal S64x80 .f32) (x5 : Vec Ideal S1x80 .f32) (x6 : Vec Ideal S80x40 .f32)

/-- The first layer's pre-activation of row `b` of the block, step `t`, unit `i`. -/
def preBlk (b : Fin 32) (t : Fin 200) (i : Fin 80) : EReal :=
  ((∑ j : Fin 64, (x1 (ix3 b t j) : EReal) * x3 (ix2 (⟨j.val, by omega⟩ : Fin 128) i)
      + ∑ j : Fin 64, ((x0 (ix3 b 0 j) : EReal) * x1 (ix3 b t j)) * x3 (ix2 (⟨64 + j.val, by omega⟩ : Fin 128) i))
    + ∑ j : Fin 64, (x0 (ix3 b 0 j) : EReal) * x4 (ix2 j i)) + x5 (ix2 0 i)

/-- The second layer's product at row `b`, step `t`, unit `j`. -/
theorem pay3_apply (b : Fin 32) (t : Fin 200) (j : Fin 40) :
    k0_pay3 x0 x1 x3 x4 x5 x6 (ix3 b t j)
      = ∑ i : Fin 80, Ideal.logistic (preBlk x0 x1 x3 x4 x5 b t i) * (x6 (ix2 i j) : EReal) := by
  unfold k0_pay3
  rw [cast_split_apply _ _ b t j ⟨b.val * 200 + t.val, by omega⟩ rfl]
  simp only [matmul]
  rw [matmul_zero_ix2_any plain3]
  refine Finset.sum_congr rfl fun i _ => ?_
  rw [cast_merge_apply _ _ b t i ⟨b.val * 200 + t.val, by omega⟩ rfl]
  rw [truncf_apply, truncf_apply]
  refine congrArg (fun y => Ideal.logistic y * (x6 (ix2 i j) : EReal)) ?_
  unfold preBlk
  rw [addf_apply, addf_apply]
  refine congrArg₂ (· + ·) (congrArg₂ (· + ·) ?_ ?_) ?_
  · rw [cast_split_apply _ _ b t i ⟨b.val * 200 + t.val, by omega⟩ rfl, matmul_zero_ix2_any plain1, sum_two]
    refine congrArg₂ (· + ·) (Finset.sum_congr rfl fun j _ => ?_) (Finset.sum_congr rfl fun j _ => ?_)
    · rw [cast_merge_apply _ _ b t ⟨j.val, by omega⟩ ⟨b.val * 200 + t.val, by omega⟩ rfl, truncf_apply, truncf_apply, shapeCast_self,
        concat_last_piece _ _ 0 (by simp) x1 rfl 0 rfl b t j ⟨j.val, by omega⟩ (by simp)]
    · rw [cast_merge_apply _ _ b t ⟨64 + j.val, by omega⟩ ⟨b.val * 200 + t.val, by omega⟩ rfl, truncf_apply, truncf_apply, shapeCast_self,
        concat_last_piece _ _ 1 (by simp) (mulf (broadcastTo S32x200x64 x0 broadcasts_S32x1x64_S32x200x64) x1) rfl 64 rfl b t j ⟨64 + j.val, by omega⟩ rfl,
        mulf_apply, bcast3_apply x0 _ b t j b 0 j (by simp) (by simp) (by simp)]
  · rw [bcast3_apply _ _ b t i b 0 i (by simp) (by simp) (by simp), cast_addMid_apply _ _ b 0 i, matmul_zero_ix2_any plain2]
    refine Finset.sum_congr rfl fun j _ => ?_
    rw [cast_dropMid_apply _ _ b 0 j, truncf_apply, truncf_apply, shapeCast_self]
  · rw [bcast3_apply _ _ b t i 0 0 i (by simp) (by simp) (by simp), cast_addMid_apply _ _ 0 0 i, shapeCast_self]

/-! ## The head, the mask and the pooling -/

/-- The pooled output of row `b` of the block at position `e`, from the second layer's pre-bias products `v34`. -/
theorem pay1_apply (v1 : Vec Ideal S32x200x64 .f32) (v3 : IVec S32x1 32) (v34 : FVec Ideal S32x200x40 .f32)
    (v37 : FVec Ideal S1x1x40 .f32) (v41 : Vec Ideal S1x40 .f32) (v48 : Vec Ideal S1x1 .f32) (b : Fin 32) (z : Fin 1) (e : Fin 64) :
    k0_pay1 v1 v3 v34 v37 v41 v48 (ix3 b z e)
      = ∑ t : Fin 200, Scalar.select (IntOp.cmpi .slt (BitVec.ofNat 32 t.val) (v3 (ix2 b 0)))
          ((∑ j : Fin 40, Ideal.logistic ((v34 (ix3 b t j) : EReal) + v37 (ix3 0 0 j)) * (v41 (ix2 0 j) : EReal)) + (v48 (ix2 0 0) : EReal))
          (Ideal.ofBits .f32 0x00000000#32) * (v1 (ix3 b t e) : EReal) := by
  unfold k0_pay1
  rw [cast_addMid_apply _ _ b z e, sum_mid_zero]
  refine Finset.sum_congr rfl fun t _ => ?_
  rw [mulf_apply, bcast3_apply _ _ b t e b t 0 (by simp) (by simp) (by simp), select_apply]
  refine congrArg₂ (fun c y => Scalar.select c y (Ideal.ofBits .f32 0x00000000#32) * (v1 (ix3 b t e) : EReal)) ?_ ?_
  · show IntOp.cmpi .slt _ _ = _
    rw [iota_single_apply, bcast3_apply _ _ b t 0 b 0 0 (by simp) (by simp) (by simp), cast_addLast_apply _ _ b 0 0]
  · rw [addf_apply, cast_addLast_apply _ _ b t 0, sum_last_zero,
      bcast3_apply _ _ b t 0 0 0 0 (by simp) (by simp) (by simp), cast_addMid_apply _ _ 0 0 0, shapeCast_self v48]
    refine congrArg (· + (v48 (ix2 0 0) : EReal)) (Finset.sum_congr rfl fun j _ => ?_)
    rw [mulf_apply, bcast3_apply _ _ b t j 0 0 j (by simp) (by simp) (by simp), cast_addMid_apply _ _ 0 0 j, shapeCast_self v41]
    show Ideal.logistic (addf v34 _ (ix3 b t j)) * _ = _
    rw [addf_apply, bcast3_apply _ _ b t j 0 0 j (by simp) (by simp) (by simp)]

/-- The lengths pass through unchanged. -/
theorem pay2_eq (x2 : Vec Ideal S32x1 .i32) : k0_pay2 (F := Ideal) x2 = x2 := by
  unfold k0_pay2
  exact shapeCast_self _ _

/-- The second layer's bias as a [1,1,40] piece. -/
theorem pay4_apply (x7 : Vec Ideal S1x40 .f32) (j : Fin 40) : k0_pay4 x7 (ix3 0 0 j) = x7 (ix2 0 j) := by
  unfold k0_pay4
  rw [cast_addMid_apply _ _ 0 0 j, shapeCast_self]

/-! ## The whole body at an entry -/

/-- What the body stores at (b, ·, e) of its output block is the pooled output of row `b` of the block. -/
theorem body_apply (x2 : Vec Ideal S32x1 .i32) (x7 : Vec Ideal S1x40 .f32) (x8 : Vec Ideal S1x40 .f32) (x9 : Vec Ideal S1x1 .f32)
    (b : Fin 32) (z : Fin 1) (e : Fin 64) :
    k0_pay1 x1 (k0_pay2 x2) (k0_pay3 x0 x1 x3 x4 x5 x6) (k0_pay4 x7) x8 x9 (ix3 b z e)
      = pool (preBlk x0 x1 x3 x4 x5 b) (fun t e => x1 (ix3 b t e)) (x2 (ix2 b 0)) (fun i j => x6 (ix2 i j))
          (fun j => x7 (ix2 0 j)) (fun j => x8 (ix2 0 j)) (x9 (ix2 0 0)) e := by
  rw [pay1_apply, pay2_eq]
  unfold pool
  refine Finset.sum_congr rfl fun t _ => ?_
  refine congrArg (fun y => Scalar.select (IntOp.cmpi .slt (BitVec.ofNat 32 t.val) (x2 (ix2 b 0))) (y + (x9 (ix2 0 0) : EReal))
    (Ideal.ofBits .f32 0x00000000#32) * (x1 (ix3 b t e) : EReal)) (Finset.sum_congr rfl fun j _ => ?_)
  rw [pay3_apply, pay4_apply]

end Cert.Din.Body

end
-- ==== Proof.DinKernelInputs.lean ====
/-
  The kernel's input blocks at a grid point, and the operands the host prepares, read at an index in terms of the
  argument arrays.

  The grid has 128 points; point t works on the 32 batch rows t·32 ‥ t·32 + 31. The queries, the keys, the lengths and
  the result move with the point in blocks of 32 rows: entry b of a block is row t·32 + b of the array (a block's
  coordinate is always block index × block size + the coordinate inside the block). The other operands are whole arrays,
  the same at every point: the first layer's weights re-banded by the host — band 1 less band 2 stacked over band 3,
  and band 0 plus band 2 —, and the biases and the head's weights re-laid as rows. Every row of the result lies in the
  block of exactly the point row / 32, which writes it back.
-/
import proofs.«132216_j89867895701918_2_alg».proof.Proof.Gen.KernelIdeal.Value
import proofs.«132216_j89867895701918_2_alg».proof.Proof.DinArrays
import proofs.«132216_j89867895701918_2_alg».proof.Proof.LibAxisLayout
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.Din.Inputs

open Cert.KernelIdeal Cert.KernelIdeal.Gen Idealize.ShloMosaic Idealize.ShloMosaic.ValueIdx Idealize.ShloMosaic.AxisLayout
  Idealize.ShloMosaic.TcCoe Idealize.SL.Sem Cert.Din

variable (m : (ℓ : Loc nD τ sig) → Buf (Elt Ideal) ℓ) (c : Dev nD) (t : Fin cfg0.N)

set_option quotPrecheck false in
local notation "A0" => m ((c : Thread nD τ).loc main_arg0)
set_option quotPrecheck false in
local notation "A1" => m ((c : Thread nD τ).loc main_arg1)
set_option quotPrecheck false in
local notation "A2" => m ((c : Thread nD τ).loc main_arg2)
set_option quotPrecheck false in
local notation "A3" => m ((c : Thread nD τ).loc main_arg3)
set_option quotPrecheck false in
local notation "A4" => m ((c : Thread nD τ).loc main_arg4)
set_option quotPrecheck false in
local notation "A5" => m ((c : Thread nD τ).loc main_arg5)
set_option quotPrecheck false in
local notation "A6" => m ((c : Thread nD τ).loc main_arg6)
set_option quotPrecheck false in
local notation "A7" => m ((c : Thread nD τ).loc main_arg7)
set_option quotPrecheck false in
local notation "A8" => m ((c : Thread nD τ).loc main_arg8)

/-! ## The grid and the block indices -/

/-- The batch row that entry b of point t's blocks is: t·32 + b. -/
def row (t : Fin cfg0.N) (b : Fin 32) : Fin 4096 :=
  ⟨t.val * 32 + b.val, by
    have ht : t.val < 128 := lt_of_lt_of_eq t.isLt N_0
    have hb := b.isLt
    omega⟩

/-- The block indices, decided over the 128 points: the queries', keys', lengths' and result's windows are at block t
    along the rows and block 0 along the other axes; every other window is at block 0 on both axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 3) = t.val ∧ win0_10.index t (1 : Fin 3) = 0 ∧ win0_10.index t (2 : Fin 3) = 0 :=
  (by decide +kernel : ∀ t : Fin grid0.N, _)

/-! ## The blocks that move with the point -/

/-- The queries' block: entry (b,z,j) is the array's (t·32+b, z, j). -/
theorem emb0 (b : Fin 32) (z : Fin 1) (j : Fin 64) :
    ((cfg0.win 0).blk t).view.emb (ix3 b z j) = ix3 (row t b) z j := by
  obtain ⟨e0, e1, e2, -⟩ := idx_facts t
  funext a; apply Fin.ext
  match a with
  | ⟨0, _⟩ => show win0_0.index t (0 : Fin 3) * 32 + 1 * b.val = t.val * 32 + b.val; rw [e0, Nat.one_mul]
  | ⟨1, _⟩ => show win0_0.index t (1 : Fin 3) * 1 + 1 * z.val = z.val; rw [e1, Nat.one_mul, Nat.zero_mul, Nat.zero_add]
  | ⟨2, _⟩ => show win0_0.index t (2 : Fin 3) * 64 + 1 * j.val = j.val; rw [e2, Nat.one_mul, Nat.zero_mul, Nat.zero_add]

theorem blk0 (b : Fin 32) (z : Fin 1) (j : Fin 64) : iblk m c 0 t (ix3 b z j) = A0 (ix3 (row t b) z j) := by
  show V m c main_arg0 (((cfg0.win 0).blk t).view.emb (ix3 b z j)) = _
  rw [emb0, V_main_arg0]

/-- The keys' block: entry (b,s,j) is the array's (t·32+b, s, j). -/
theorem emb1 (b : Fin 32) (s : Fin 200) (j : Fin 64) :
    ((cfg0.win 1).blk t).view.emb (ix3 b s j) = ix3 (row t b) s j := by
  obtain ⟨-, -, -, e0, e1, e2, -⟩ := idx_facts t
  funext a; apply Fin.ext
  match a with
  | ⟨0, _⟩ => show win0_1.index t (0 : Fin 3) * 32 + 1 * b.val = t.val * 32 + b.val; rw [e0, Nat.one_mul]
  | ⟨1, _⟩ => show win0_1.index t (1 : Fin 3) * 200 + 1 * s.val = s.val; rw [e1, Nat.one_mul, Nat.zero_mul, Nat.zero_add]
  | ⟨2, _⟩ => show win0_1.index t (2 : Fin 3) * 64 + 1 * j.val = j.val; rw [e2, Nat.one_mul, Nat.zero_mul, Nat.zero_add]

theorem blk1 (b : Fin 32) (s : Fin 200) (j : Fin 64) : iblk m c 1 t (ix3 b s j) = A1 (ix3 (row t b) s j) := by
  show V m c main_arg1 (((cfg0.win 1).blk t).view.emb (ix3 b s j)) = _
  rw [emb1, V_main_arg1]

/-- The result's block: entry (b,z,e) is the array's (t·32+b, z, e). -/
theorem emb10 (b : Fin 32) (z : Fin 1) (e : Fin 64) :
    ((cfg0.win 10).blk t).view.emb (ix3 b z e) = ix3 (row t b) z e := by
  obtain ⟨-, -, -, -, -, -, -, -, -, -, -, -, -, -, -, -, -, -, -, -, -, -, e0, e1, e2⟩ := idx_facts t
  funext a; apply Fin.ext
  match a with
  | ⟨0, _⟩ => show win0_10.index t (0 : Fin 3) * 32 + 1 * b.val = t.val * 32 + b.val; rw [e0, Nat.one_mul]
  | ⟨1, _⟩ => show win0_10.index t (1 : Fin 3) * 1 + 1 * z.val = z.val; rw [e1, Nat.one_mul, Nat.zero_mul, Nat.zero_add]
  | ⟨2, _⟩ => show win0_10.index t (2 : Fin 3) * 64 + 1 * e.val = e.val; rw [e2, Nat.one_mul, Nat.zero_mul, Nat.zero_add]

/-! ## The operands the host prepares, as functions of the argument arrays -/

/-- The lengths as a column. -/
theorem V_v12 : (V m c main_v12 : S4096x1.Idx → Elt Ideal .i32)
    = shapeCast S4096x1 (A2 : S4096.Idx → Elt Ideal .i32) shapeCasts_S4096_S4096x1 := by
  dsimp only [V, hostOps0]; after_results; rfl

/-- The first layer's bias as a row. -/
theorem V_v7 : (V m c main_v7 : S1x80.Idx → EReal) = shapeCast S1x80 (A4 : S80.Idx → EReal) shapeCasts_S80_S1x80 := by
  dsimp only [V, hostOps0]; after_results; rfl

/-- The second layer's bias as a row. -/
theorem V_v8 : (V m c main_v8 : S1x40.Idx → EReal) = shapeCast S1x40 (A6 : S40.Idx → EReal) shapeCasts_S40_S1x40 := by
  dsimp only [V, hostOps0]; after_results; rfl

/-- The head's weights, a column, flattened and then laid as a row. -/
theorem V_v10 : (V m c main_v10 : S1x40.Idx → EReal)
    = shapeCast S1x40 (shapeCast S40 (A7 : S40x1.Idx → EReal) shapeCasts_S40x1_S40) shapeCasts_S40_S1x40 := by
  dsimp only [V, hostOps0]; after_results; rfl

/-- The head's bias as a one-by-one matrix. -/
theorem V_v11 : (V m c main_v11 : S1x1.Idx → EReal) = shapeCast S1x1 (A8 : S1.Idx → EReal) shapeCasts_S1_S1x1 := by
  dsimp only [V, hostOps0]; after_results; rfl

/-- Band 0 plus band 2 of the first layer's weights. -/
theorem V_v4 : (V m c main_v4 : S64x80.Idx → EReal)
    = (addf (F := Ideal) (φ := .f32) (extractStridedSlice S64x80 ![0, 0] (A3 : S256x80.Idx → EReal) slices_S256x80_S64x80_0_0)
        (extractStridedSlice S64x80 ![128, 0] (A3 : S256x80.Idx → EReal) slices_S256x80_S64x80_128_0) : S64x80.Idx → EReal) := by
  dsimp only [V, hostOps0]; after_results

/-- Band 1 less band 2, stacked over band 3. -/
theorem V_v6 : (V m c main_v6 : S128x80.Idx → EReal)
    = (concatenate (α := EReal) S128x80 0
        [⟨S64x80, subf (F := Ideal) (φ := .f32)
            (extractStridedSlice S64x80 ![64, 0] (A3 : S256x80.Idx → EReal) slices_S256x80_S64x80_64_0)
            (extractStridedSlice S64x80 ![128, 0] (A3 : S256x80.Idx → EReal) slices_S256x80_S64x80_128_0)⟩,
          ⟨S64x80, extractStridedSlice S64x80 ![192, 0] (A3 : S256x80.Idx → EReal) slices_S256x80_S64x80_192_0⟩]
        concatenates_S64x80_S64x80_S128x80_d0 : S128x80.Idx → EReal) := by
  dsimp only [V, hostOps0]; after_results

/-! ## Small re-layings read at an index -/

/-- A vector laid as a column: entry (r,0) is entry r. -/
theorem cast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) :=
  shapeCast_apply x h _ _ (by
    rw [Shape.rowMajor_val_two, Shape.rowMajor_val_one]
    show r.val = r.val * 1 + z.val
    have hz : z.val = 0 := by omega
    rw [hz, Nat.mul_one, Nat.add_zero])

/-- A column flattened: entry r is entry (r,0). -/
theorem cast_uncol_apply {α : Type} {a : ℕ} (x : (⟨2, ![a, 1]⟩ : Shape).Idx → α)
    (h : (⟨2, ![a, 1]⟩ : Shape).ShapeCasts ⟨1, ![a]⟩) (r : Fin a) :
    shapeCast ⟨1, ![a]⟩ x h (ix1 r) = x (ix2 r 0) :=
  shapeCast_apply x h _ _ (by
    rw [Shape.rowMajor_val_two, Shape.rowMajor_val_one]
    show r.val * 1 + 0 = r.val
    rw [Nat.mul_one, Nat.add_zero])

/-! ## The whole-array windows -/

/-- A window that is the whole of a matrix, at block 0 on both axes: entry (a,b) of the block is entry (a,b). -/
theorem emb2 (b : Fin 32) (z : Fin 1) : ((cfg0.win 2).blk t).view.emb (ix2 b z) = ix2 (row t b) z := by
  obtain ⟨-, -, -, -, -, -, e0, e1, -⟩ := idx_facts t
  funext a; apply Fin.ext
  match a with
  | ⟨0, _⟩ => show win0_2.index t (0 : Fin 2) * 32 + 1 * b.val = t.val * 32 + b.val; rw [e0, Nat.one_mul]
  | ⟨1, _⟩ => show win0_2.index t (1 : Fin 2) * 1 + 1 * z.val = z.val; rw [e1, Nat.one_mul, Nat.zero_mul, Nat.zero_add]

theorem blk2 (b : Fin 32) : iblk m c 2 t (ix2 b 0) = A2 (ix1 (row t b)) := by
  show V m c main_v12 (((cfg0.win 2).blk t).view.emb (ix2 b 0)) = _
  rw [emb2, V_v12]
  exact cast_col_apply (A2 : S4096.Idx → Elt Ideal .i32) shapeCasts_S4096_S4096x1 (row t b) 0

/-- The stacked weights' window is the whole array at every point. -/
theorem emb3 (a : Fin 128) (b : Fin 80) : ((cfg0.win 3).blk t).view.emb (ix2 a b) = ix2 a b := by
  obtain ⟨-, -, -, -, -, -, -, -, e0, e1, -⟩ := idx_facts t
  funext d; apply Fin.ext
  match d with
  | ⟨0, _⟩ => show win0_3.index t (0 : Fin 2) * 128 + 1 * a.val = a.val; rw [e0, Nat.one_mul, Nat.zero_mul, Nat.zero_add]
  | ⟨1, _⟩ => show win0_3.index t (1 : Fin 2) * 80 + 1 * b.val = b.val; rw [e1, Nat.one_mul, Nat.zero_mul, Nat.zero_add]

/-- Rows 0‥63 of the stacked weights: band 1 less band 2. -/
theorem blk3_lo (j : Fin 64) (i : Fin 80) :
    iblk m c 3 t (ix2 (⟨j.val, by omega⟩ : Fin 128) i) = band A3 64 (by omega) i j - band A3 128 (by omega) i j := by
  show V m c main_v6 (((cfg0.win 3).blk t).view.emb (ix2 (⟨j.val, by omega⟩ : Fin 128) i)) = _
  rw [emb3, V_v6, concat_rows_piece _ _ 0 (by simp) _ rfl 0 rfl j i (⟨j.val, by omega⟩ : Fin 128) (Nat.zero_add _),
    subf_apply, slice2_axis0_eq, slice2_axis0_eq]

/-- Rows 64‥127 of the stacked weights: band 3. -/
theorem blk3_hi (j : Fin 64) (i : Fin 80) :
    iblk m c 3 t (ix2 (⟨64 + j.val, by omega⟩ : Fin 128) i) = band A3 192 (by omega) i j := by
  show V m c main_v6 (((cfg0.win 3).blk t).view.emb (ix2 (⟨64 + j.val, by omega⟩ : Fin 128) i)) = _
  rw [emb3, V_v6, concat_rows_piece _ _ 1 (by simp) _ rfl 64 rfl j i (⟨64 + j.val, by omega⟩ : Fin 128) rfl,
    slice2_axis0_eq]

/-- The summed weights' window is the whole array at every point. -/
theorem emb4 (a : Fin 64) (b : Fin 80) : ((cfg0.win 4).blk t).view.emb (ix2 a b) = ix2 a b := by
  obtain ⟨-, -, -, -, -, -, -, -, -, -, e0, e1, -⟩ := idx_facts t
  funext d; apply Fin.ext
  match d with
  | ⟨0, _⟩ => show win0_4.index t (0 : Fin 2) * 64 + 1 * a.val = a.val; rw [e0, Nat.one_mul, Nat.zero_mul, Nat.zero_add]
  | ⟨1, _⟩ => show win0_4.index t (1 : Fin 2) * 80 + 1 * b.val = b.val; rw [e1, Nat.one_mul, Nat.zero_mul, Nat.zero_add]

/-- The summed weights: band 0 plus band 2. -/
theorem blk4 (j : Fin 64) (i : Fin 80) :
    iblk m c 4 t (ix2 j i) = band A3 0 (by omega) i j + band A3 128 (by omega) i j := by
  show V m c main_v4 (((cfg0.win 4).blk t).view.emb (ix2 j i)) = _
  rw [emb4, V_v4, addf_apply, slice2_axis0_eq, slice2_axis0_eq]

/-- The first bias row's window is the whole array at every point. -/
theorem emb5 (a : Fin 1) (b : Fin 80) : ((cfg0.win 5).blk t).view.emb (ix2 a b) = ix2 a b := by
  obtain ⟨-, -, -, -, -, -, -, -, -, -, -, -, e0, e1, -⟩ := idx_facts t
  funext d; apply Fin.ext
  match d with
  | ⟨0, _⟩ => show win0_5.index t (0 : Fin 2) * 1 + 1 * a.val = a.val; rw [e0, Nat.one_mul, Nat.zero_mul, Nat.zero_add]
  | ⟨1, _⟩ => show win0_5.index t (1 : Fin 2) * 80 + 1 * b.val = b.val; rw [e1, Nat.one_mul, Nat.zero_mul, Nat.zero_add]

theorem blk5 (i : Fin 80) : iblk m c 5 t (ix2 0 i) = A4 (ix1 i) := by
  show V m c main_v7 (((cfg0.win 5).blk t).view.emb (ix2 0 i)) = _
  rw [emb5, V_v7]
  exact shapeCast_a_1a_apply (A4 : S80.Idx → EReal) shapeCasts_S80_S1x80 0 i

/-- The second layer's weights' window is the whole array at every point. -/
theorem emb6 (a : Fin 80) (b : Fin 40) : ((cfg0.win 6).blk t).view.emb (ix2 a b) = ix2 a b := by
  obtain ⟨-, -, -, -, -, -, -, -, -, -, -, -, -, -, e0, e1, -⟩ := idx_facts t
  funext d; apply Fin.ext
  match d with
  | ⟨0, _⟩ => show win0_6.index t (0 : Fin 2) * 80 + 1 * a.val = a.val; rw [e0, Nat.one_mul, Nat.zero_mul, Nat.zero_add]
  | ⟨1, _⟩ => show win0_6.index t (1 : Fin 2) * 40 + 1 * b.val = b.val; rw [e1, Nat.one_mul, Nat.zero_mul, Nat.zero_add]

theorem blk6 (a : Fin 80) (j : Fin 40) : iblk m c 6 t (ix2 a j) = A5 (ix2 a j) := by
  show V m c main_arg5 (((cfg0.win 6).blk t).view.emb (ix2 a j)) = _
  rw [emb6, V_main_arg5]

/-- The second bias row's window is the whole array at every point. -/
theorem emb7 (a : Fin 1) (b : Fin 40) : ((cfg0.win 7).blk t).view.emb (ix2 a b) = ix2 a b := by
  obtain ⟨-, -, -, -, -, -, -, -, -, -, -, -, -, -, -, -, e0, e1, -⟩ := idx_facts t
  funext d; apply Fin.ext
  match d with
  | ⟨0, _⟩ => show win0_7.index t (0 : Fin 2) * 1 + 1 * a.val = a.val; rw [e0, Nat.one_mul, Nat.zero_mul, Nat.zero_add]
  | ⟨1, _⟩ => show win0_7.index t (1 : Fin 2) * 40 + 1 * b.val = b.val; rw [e1, Nat.one_mul, Nat.zero_mul, Nat.zero_add]

theorem blk7 (j : Fin 40) : iblk m c 7 t (ix2 0 j) = A6 (ix1 j) := by
  show V m c main_v8 (((cfg0.win 7).blk t).view.emb (ix2 0 j)) = _
  rw [emb7, V_v8]
  exact shapeCast_a_1a_apply (A6 : S40.Idx → EReal) shapeCasts_S40_S1x40 0 j

/-- The head's weight row's window is the whole array at every point. -/
theorem emb8 (a : Fin 1) (b : Fin 40) : ((cfg0.win 8).blk t).view.emb (ix2 a b) = ix2 a b := by
  obtain ⟨-, -, -, -, -, -, -, -, -, -, -, -, -, -, -, -, -, -, e0, e1, -⟩ := idx_facts t
  funext d; apply Fin.ext
  match d with
  | ⟨0, _⟩ => show win0_8.index t (0 : Fin 2) * 1 + 1 * a.val = a.val; rw [e0, Nat.one_mul, Nat.zero_mul, Nat.zero_add]
  | ⟨1, _⟩ => show win0_8.index t (1 : Fin 2) * 40 + 1 * b.val = b.val; rw [e1, Nat.one_mul, Nat.zero_mul, Nat.zero_add]

theorem blk8 (j : Fin 40) : iblk m c 8 t (ix2 0 j) = A7 (ix2 j 0) := by
  show V m c main_v10 (((cfg0.win 8).blk t).view.emb (ix2 0 j)) = _
  rw [emb8, V_v10]
  exact (shapeCast_a_1a_apply (shapeCast S40 (A7 : S40x1.Idx → EReal) shapeCasts_S40x1_S40) shapeCasts_S40_S1x40 0 j).trans
    (cast_uncol_apply (A7 : S40x1.Idx → EReal) shapeCasts_S40x1_S40 j)

/-- The head's bias' window is the whole array at every point. -/
theorem emb9 (a : Fin 1) (b : Fin 1) : ((cfg0.win 9).blk t).view.emb (ix2 a b) = ix2 a b := by
  obtain ⟨-, -, -, -, -, -, -, -, -, -, -, -, -, -, -, -, -, -, -, -, e0, e1, -⟩ := idx_facts t
  funext d; apply Fin.ext
  match d with
  | ⟨0, _⟩ => show win0_9.index t (0 : Fin 2) * 1 + 1 * a.val = a.val; rw [e0, Nat.one_mul, Nat.zero_mul, Nat.zero_add]
  | ⟨1, _⟩ => show win0_9.index t (1 : Fin 2) * 1 + 1 * b.val = b.val; rw [e1, Nat.one_mul, Nat.zero_mul, Nat.zero_add]

theorem blk9 : iblk m c 9 t (ix2 0 0) = A8 (ix1 0) := by
  show V m c main_v11 (((cfg0.win 9).blk t).view.emb (ix2 0 0)) = _
  rw [emb9, V_v11]
  exact shapeCast_a_1a_apply (A8 : S1.Idx → EReal) shapeCasts_S1_S1x1 0 0

/-! ## The result's blocks cover the array -/

/-- An index of the result array is in point t's block iff each coordinate is in the block's range on its axis. -/
theorem mem_blk10 (t : Fin cfg0.N) (i : S4096x1x64.Idx) :
    i ∈ ((cfg0.win 10).blk t).view.set ↔ ∀ a : Fin 3, win0_10.index t a * S32x1x64.size a ≤ (i a).val
      ∧ (i a).val < win0_10.index t a * S32x1x64.size a + S32x1x64.size a := by
  show i ∈ ((View.whole main_v13).slice (win0_10.rect t)).set ↔ _
  rw [View.set_slice_whole, Rect.mem_set_unit]
  exact Iff.rfl

/-- Every index of the result array lies in the block of the point (row / 32), which writes its block back. -/
theorem cover10 : ∀ i : S4096x1x64.Idx, ∃ t : Fin cfg0.N, (cfg0.win 10).flush t = true ∧ i ∈ ((cfg0.win 10).blk t).view.set := by
  intro i
  have hi0 : (i 0).val < 4096 := (i 0).isLt
  have hi1 : (i 1).val < 1 := (i 1).isLt
  have hi2 : (i 2).val < 64 := (i 2).isLt
  obtain ⟨t, ht⟩ : ∃ t : Fin cfg0.N, t.val = (i 0).val / 32 :=
    ⟨⟨(i 0).val / 32, lt_of_lt_of_eq (by omega) N_0.symm⟩, rfl⟩
  obtain ⟨-, -, -, -, -, -, -, -, -, -, -, -, -, -, -, -, -, -, -, -, -, -, e0, e1, e2⟩ := idx_facts t
  refine ⟨t, flush0_10 t, ?_⟩
  rw [mem_blk10]
  intro a
  match a with
  | ⟨0, _⟩ =>
    show win0_10.index t (0 : Fin 3) * 32 ≤ (i 0).val ∧ (i 0).val < win0_10.index t (0 : Fin 3) * 32 + 32
    rw [e0, ht]; omega
  | ⟨1, _⟩ =>
    show win0_10.index t (1 : Fin 3) * 1 ≤ (i 1).val ∧ (i 1).val < win0_10.index t (1 : Fin 3) * 1 + 1
    rw [e1]; omega
  | ⟨2, _⟩ =>
    show win0_10.index t (2 : Fin 3) * 64 ≤ (i 2).val ∧ (i 2).val < win0_10.index t (2 : Fin 3) * 64 + 64
    rw [e2]; omega

end Cert.Din.Inputs

end
-- ==== Proof.DinKernelArray.lean ====
/-
  From the blocks to the array: what the kernel's result array holds after the run.

  Grid point t works on batch rows 32·t … 32·t+31. Its input blocks are those rows of the queries, keys and lengths and
  the whole (host-folded) weight arrays, so the first layer's pre-activation of row b of the block is the kernel's
  spelling (Cert.Din.preKer) at batch row 32·t+b, and what the point writes back is the block of rows 32·t … of ONE
  function of the argument arrays, `result`: row by row the pooled output (flushed_eq). The 128 blocks tile the 4096
  rows, so the array ends holding that function (final), and the run's post is restated with it (run).
-/
import proofs.«132216_j89867895701918_2_alg».proof.Proof.Gen.KernelIdeal.Value
import proofs.«132216_j89867895701918_2_alg».proof.Proof.DinArrays
import proofs.«132216_j89867895701918_2_alg».proof.Proof.DinKernelBody
import proofs.«132216_j89867895701918_2_alg».proof.Proof.DinKernelInputs
import Idealize.ShloMosaic.Lib.Pipeline.Value

noncomputable section

open scoped BigOperators

namespace Cert.Din.Array

open Cert.KernelIdeal Cert.KernelIdeal.Gen Idealize.ShloMosaic Idealize.ShloMosaic.ValueIdx Idealize.ShloMosaic.TcCoe Idealize.SL.Sem
open Idealize.ShloMosaic.Pipeline (Dat)
open Cert.Din Cert.Din.Body Cert.Din.Inputs

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The kernel's result array on core `c` as one function of the argument arrays as launched. -/
def result (c : Dev nD) : S4096x1x64.Idx → EReal :=
  G (preKer (m ((c : Thread nD τ).loc main_arg0)) (m ((c : Thread nD τ).loc main_arg1)) (m ((c : Thread nD τ).loc main_arg3))
      (m ((c : Thread nD τ).loc main_arg4)))
    (m ((c : Thread nD τ).loc main_arg1)) (m ((c : Thread nD τ).loc main_arg2)) (m ((c : Thread nD τ).loc main_arg5))
    (m ((c : Thread nD τ).loc main_arg6)) (m ((c : Thread nD τ).loc main_arg7)) (m ((c : Thread nD τ).loc main_arg8))

/-- Row `b` of point `t`'s blocks has the kernel's first-layer pre-activation of batch row 32·t+b. -/
theorem preBlk_eq (c : Dev nD) (t : Fin cfg0.N) (b : Fin 32) :
    preBlk (iblk m c 0 t) (iblk m c 1 t) (iblk m c 3 t) (iblk m c 4 t) (iblk m c 5 t) b
      = preKer (m ((c : Thread nD τ).loc main_arg0)) (m ((c : Thread nD τ).loc main_arg1)) (m ((c : Thread nD τ).loc main_arg3))
          (m ((c : Thread nD τ).loc main_arg4)) (row t b) := by
  funext s i
  unfold preBlk preKer mixK
  simp only [blk0, blk1, blk3_lo, blk3_hi, blk4, blk5]

/-- What point `t` writes back is block `t` of `result`. -/
theorem flushed_eq (c : Dev nD) (t : Fin cfg0.N) :
    (dats m 0 c).flushed 10 t = ((cfg0.win 10).blk t).view.read (Elt Ideal) (result m c) := by
  rw [Cert.KernelIdeal.Value.flushed10]
  unfold out0_10
  rw [View.canon_unit_zero hz3]
  simp only [View.ld_unit_zero (S := S32x1x64) hz3, View.ld_unit_zero (S := S32x200x64) hz3, View.ld_unit_zero (S := S32x1) hz2,
    View.ld_unit_zero (S := S128x80) hz2, View.ld_unit_zero (S := S64x80) hz2, View.ld_unit_zero (S := S1x80) hz2,
    View.ld_unit_zero (S := S80x40) hz2, View.ld_unit_zero (S := S1x40) hz2, View.ld_unit_zero (S := S1x1) hz2]
  funext j
  obtain ⟨b, z, e, rfl⟩ : ∃ (b : Fin 32) (z : Fin 1) (e : Fin 64), j = ix3 b z e := ⟨j 0, j 1, j 2, eq_ix3 j⟩
  show k0_pay1 (iblk m c 1 t) (k0_pay2 (iblk m c 2 t))
      (k0_pay3 (iblk m c 0 t) (iblk m c 1 t) (iblk m c 3 t) (iblk m c 4 t) (iblk m c 5 t) (iblk m c 6 t))
      (k0_pay4 (iblk m c 7 t)) (iblk m c 8 t) (iblk m c 9 t) (ix3 b z e)
    = result m c (((cfg0.win 10).blk t).view.emb (ix3 b z e))
  rw [body_apply, emb10, preBlk_eq]
  have h1 : (fun s e' => iblk m c 1 t (ix3 b s e')) = fun s e' => m ((c : Thread nD τ).loc main_arg1) (ix3 (row t b) s e') :=
    funext fun s => funext fun e' => blk1 m c t b s e'
  have h6 : (fun i j => iblk m c 6 t (ix2 i j)) = fun i j => m ((c : Thread nD τ).loc main_arg5) (ix2 i j) :=
    funext fun i => funext fun j => blk6 m c t i j
  have h7 : (fun j => iblk m c 7 t (ix2 0 j)) = fun j => m ((c : Thread nD τ).loc main_arg6) (ix1 j) := funext fun j => blk7 m c t j
  have h8 : (fun j => iblk m c 8 t (ix2 0 j)) = fun j => m ((c : Thread nD τ).loc main_arg7) (ix2 j 0) := funext fun j => blk8 m c t j
  rw [h1, h6, h7, h8, blk2, blk9]
  rfl

/-- The result array after the run is `result`: the 128 blocks of 32 rows cover it. -/
theorem final (c : Dev nD) : (dats m 0 c).arrAt 10 cfg0.N = result m c :=
  (dats m 0 c).arrAt_eq_of_cover 10 (result m c) (fun t _ => flushed_eq m c t) cover10

/-- The kernel's run with the result array named as `result` of the arguments, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.Din.Array

end
-- ==== Proof.lean ====
/- The certificate of a deep-interest attention pooling kernel against its jnp reference.

   Both programs take queries [4096,1,64], keys [4096,200,64], lengths [4096] and a three-layer scoring network. For each
   batch row and history step the reference concatenates the four features q, k, q − k, q·k (256 numbers), applies a
   256→80 layer and a logistic, an 80→40 layer and a logistic, a 40→1 head, masks the scores of the steps at or past the
   row's length to zero, and pools the keys with the scores. The kernel folds the first layer's difference band into its
   neighbours on the host, (q − k)·c = q·c − k·c, so that the layer is one 128-wide product against [k, q·k] plus one
   64-wide product against q; it works on 32 rows at a time and computes the head and the pooling by sums on the vector
   unit. At the extended reals the two first layers agree exactly when queries, keys and first-layer weights are real
   numbers, which is what the precondition (every float input finite) gives; from the first layer's pre-activations on
   the two programs are the same expression.

   The three frames are the generated ones (the reference's is its generated run with the result dropped), the
   idealization rewrote nothing, and the value claim sets the kernel's run (Cert.Din.Array.run: the result array is
   Cert.Din.G of the kernel's pre-activations) beside the reference's (Cert.Din.ref_eq: Cert.Din.G of the reference's),
   joined by Cert.Din.preKer_eq_preRef under the finiteness read off the precondition (Cert.FiniteInputs.real_of_pre). -/
import proofs.«132216_j89867895701918_2_alg».proof.Defs
import proofs.«132216_j89867895701918_2_alg».proof.Proof.Gen.Kernel
import proofs.«132216_j89867895701918_2_alg».proof.Proof.Gen.Kernel.Skeleton
import proofs.«132216_j89867895701918_2_alg».proof.Proof.Gen.Kernel.Launch
import proofs.«132216_j89867895701918_2_alg».proof.Proof.Gen.Kernel.Points
import proofs.«132216_j89867895701918_2_alg».proof.Proof.Gen.Kernel.Frame
import proofs.«132216_j89867895701918_2_alg».proof.Proof.Gen.KernelIdeal
import proofs.«132216_j89867895701918_2_alg».proof.Proof.Gen.KernelIdeal.Skeleton
import proofs.«132216_j89867895701918_2_alg».proof.Proof.Gen.KernelIdeal.Launch
import proofs.«132216_j89867895701918_2_alg».proof.Proof.Gen.KernelIdeal.Points
import proofs.«132216_j89867895701918_2_alg».proof.Proof.Gen.KernelIdeal.Frame
import proofs.«132216_j89867895701918_2_alg».proof.Proof.Gen.ReferenceIdeal
import proofs.«132216_j89867895701918_2_alg».proof.Proof.Gen.Pre_finite_inputs
import proofs.«132216_j89867895701918_2_alg».proof.Proof.Gen.KernelIdeal.Value
import proofs.«132216_j89867895701918_2_alg».proof.Proof.Gen.ReferenceIdeal.Run
import proofs.«132216_j89867895701918_2_alg».proof.Proof.Gen.ReferenceIdeal.Read
import proofs.«132216_j89867895701918_2_alg».proof.Proof.FiniteInputs
import proofs.«132216_j89867895701918_2_alg».proof.Proof.DinArrays
import proofs.«132216_j89867895701918_2_alg».proof.Proof.DinReference
import proofs.«132216_j89867895701918_2_alg».proof.Proof.DinKernelArray
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two idealized programs end with equal results: both result arrays are Cert.Din.G of the arguments, the kernel's
    over its folded first layer and the reference's over the four-band one, and for the finite inputs of the precondition
    the two first layers are one function. -/
theorem algebraic : Cert.algebraic_KernelIdeal_ReferenceIdeal := by
  intro m ρ m' ρ' hpre hagree
  refine ⟨fun c => Cert.Din.Array.result m c, Cert.Din.Array.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h3⟩ := Cert.FiniteInputs.real_of_pre _ _ _ _ _ _ _ _ _ (hpre c)
  obtain ⟨a0, a1, a2, a3, a4, a5, a6, a7, a8⟩ := hagree c
  refine (Cert.ReferenceIdeal.Read.val_main_v38_eq _ _ _ _ _ _ _ _ _).trans ?_
  rw [Cert.Din.ref_eq, a0, a1, a2, a3, a4, a5, a6, a7, a8]
  show _ = Cert.Din.Array.result m c
  unfold Cert.Din.Array.result
  rw [Cert.Din.preKer_eq_preRef _ _ _ _ h0 h1 h3]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
